-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100x81 : Shape := ⟨3, ![4, 100, 81]⟩
abbrev S4x100x256x256 : Shape := ⟨4, ![4, 100, 256, 256]⟩
abbrev S4x20 : Shape := ⟨2, ![4, 20]⟩
abbrev S4x20x256x256 : Shape := ⟨4, ![4, 20, 256, 256]⟩
abbrev S_ : Shape := ⟨0, ![]⟩

class Facts : Prop where
  bcast_S_S4x100x81 : S_.BroadcastsInDim S4x100x81 (![] : Fin 0 → Fin S4x100x81.rank)
  reducesTo_S4x100x81_S_d0_1_2 : S4x100x81.ReducesTo [0, 1, 2] S_
  h_S_ : 0 < S_.numel
  bcast_S_S4x100x256x256 : S_.BroadcastsInDim S4x100x256x256 (![] : Fin 0 → Fin S4x100x256x256.rank)
  reducesTo_S4x100x256x256_S_d0_1_2_3 : S4x100x256x256.ReducesTo [0, 1, 2, 3] S_
  bcast_S_S4x20x256x256 : S_.BroadcastsInDim S4x20x256x256 (![] : Fin 0 → Fin S4x20x256x256.rank)
  reducesTo_S4x20x256x256_S_d0_1_2_3 : S4x20x256x256.ReducesTo [0, 1, 2, 3] S_

variable [Facts]

def fn {F : FTy → Type} [FloatOps F] (main_arg0 : FVec F S4x100x81 .f32) (main_arg1 : FVec F S4x100x256x256 .f32) (main_arg2 : IVec S4x20 32) (main_arg3 : FVec F S4x20x256x256 .f32) : IVec S_ 1 :=
  let main_v0 : FVec F S4x100x81 .f32 := Host.absf main_arg0
  let main_cst : FVec F S_ .f32 := constant S_ .f32 0x7F800000#32
  let main_v1 : FVec F S4x100x81 .f32 := broadcastInDim S4x100x81 ![] bcast_S_S4x100x81 main_cst
  let main_v2 : IVec S4x100x81 1 := cmpf .olt main_v0 main_v1
  let main_c : IVec S_ 1 := constantI S_ 1 1#1
  let main_v3 : IVec S_ 1 := (fun x v => Host.reduce IntOp.andi x v reducesTo_S4x100x81_S_d0_1_2 h_S_) main_v2 main_c
  let main_v4 : FVec F S4x100x256x256 .f32 := Host.absf main_arg1
  let main_cst_0 : FVec F S_ .f32 := constant S_ .f32 0x7F800000#32
  let main_v5 : FVec F S4x100x256x256 .f32 := broadcastInDim S4x100x256x256 ![] bcast_S_S4x100x256x256 main_cst_0
  let main_v6 : IVec S4x100x256x256 1 := cmpf .olt main_v4 main_v5
  let main_c_1 : IVec S_ 1 := constantI S_ 1 1#1
  let main_v7 : IVec S_ 1 := (fun x v => Host.reduce IntOp.andi x v reducesTo_S4x100x256x256_S_d0_1_2_3 h_S_) main_v6 main_c_1
  let main_v8 : IVec S_ 1 := andi main_v3 main_v7
  let main_v9 : FVec F S4x20x256x256 .f32 := Host.absf main_arg3
  let main_cst_2 : FVec F S_ .f32 := constant S_ .f32 0x7F800000#32
  let main_v10 : FVec F S4x20x256x256 .f32 := broadcastInDim S4x20x256x256 ![] bcast_S_S4x20x256x256 main_cst_2
  let main_v11 : IVec S4x20x256x256 1 := cmpf .olt main_v9 main_v10
  let main_c_3 : IVec S_ 1 := constantI S_ 1 1#1
  let main_v12 : IVec S_ 1 := (fun x v => Host.reduce IntOp.andi x v reducesTo_S4x20x256x256_S_d0_1_2_3 h_S_) main_v11 main_c_3
  let main_v13 : IVec S_ 1 := andi main_v8 main_v12
  main_v13
-- ==== Kernel.lean ====
abbrev S4x100x81 : Shape := ⟨3, ![4, 100, 81]⟩
abbrev S4x100x256x256 : Shape := ⟨4, ![4, 100, 256, 256]⟩
abbrev S4x20 : Shape := ⟨2, ![4, 20]⟩
abbrev S4x20x256x256 : Shape := ⟨4, ![4, 20, 256, 256]⟩
abbrev S4x100x65536 : Shape := ⟨3, ![4, 100, 65536]⟩
abbrev S4x20x65536 : Shape := ⟨3, ![4, 20, 65536]⟩
abbrev S4x100x20 : Shape := ⟨3, ![4, 100, 20]⟩
abbrev S1x100x8192 : Shape := ⟨3, ![1, 100, 8192]⟩
abbrev S1x20x8192 : Shape := ⟨3, ![1, 20, 8192]⟩
abbrev S1x100x20 : Shape := ⟨3, ![1, 100, 20]⟩
abbrev S100x20 : Shape := ⟨2, ![100, 20]⟩
abbrev S100x1 : Shape := ⟨2, ![100, 1]⟩
abbrev S1x20 : Shape := ⟨2, ![1, 20]⟩
abbrev S100x8192 : Shape := ⟨2, ![100, 8192]⟩
abbrev S20x8192 : Shape := ⟨2, ![20, 8192]⟩
abbrev S8192x20 : Shape := ⟨2, ![8192, 20]⟩
abbrev S100 : Shape := ⟨1, ![100]⟩
abbrev S1x8192 : Shape := ⟨2, ![1, 8192]⟩
abbrev S4x1x20 : Shape := ⟨3, ![4, 1, 20]⟩
abbrev S_ : Shape := ⟨0, ![]⟩
abbrev S4x100x20x1 : Shape := ⟨4, ![4, 100, 20, 1]⟩
abbrev S1 : Shape := ⟨1, ![1]⟩
abbrev S1x1x1x1 : Shape := ⟨4, ![1, 1, 1, 1]⟩

abbrev nBuf : Space → Nat
  | .hbm => 42
  | .vmem => 9
  | .smem => 0
  | _ => 0

abbrev bufTy : (tb : Table) → Fin (tcTables nBuf tb) → BufTy
  | .hbm, ⟨0, _⟩ => ⟨S4x100x81, .f32⟩
  | .hbm, ⟨1, _⟩ => ⟨S4x100x256x256, .f32⟩
  | .hbm, ⟨2, _⟩ => ⟨S4x20, .i32⟩
  | .hbm, ⟨3, _⟩ => ⟨S4x20x256x256, .f32⟩
  | .hbm, ⟨4, _⟩ => ⟨S4x100x65536, .f32⟩
  | .hbm, ⟨5, _⟩ => ⟨S4x20x65536, .f32⟩
  | .hbm, ⟨6, _⟩ => ⟨S4x100x20, .f32⟩
  | .hbm, ⟨7, _⟩ => ⟨S4x1x20, .i32⟩
  | .hbm, ⟨8, _⟩ => ⟨S4x100x20, .i32⟩
  | .hbm, ⟨9, _⟩ => ⟨S_, .i32⟩
  | .hbm, ⟨10, _⟩ => ⟨S4x100x20, .i32⟩
  | .hbm, ⟨11, _⟩ => ⟨S4x100x20, .i1⟩
  | .hbm, ⟨12, _⟩ => ⟨S_, .i32⟩
  | .hbm, ⟨13, _⟩ => ⟨S4x100x20, .i32⟩
  | .hbm, ⟨14, _⟩ => ⟨S4x100x20, .i32⟩
  | .hbm, ⟨15, _⟩ => ⟨S4x100x20, .i32⟩
  | .hbm, ⟨16, _⟩ => ⟨S4x100x20x1, .i32⟩
  | .hbm, ⟨17, _⟩ => ⟨S1, .i32⟩
  | .hbm, ⟨18, _⟩ => ⟨S_, .i32⟩
  | .hbm, ⟨19, _⟩ => ⟨S4x100x20x1, .i32⟩
  | .hbm, ⟨20, _⟩ => ⟨S4x100x20x1, .i1⟩
  | .hbm, ⟨21, _⟩ => ⟨S1x1x1x1, .i32⟩
  | .hbm, ⟨22, _⟩ => ⟨S4x100x20x1, .i32⟩
  | .hbm, ⟨23, _⟩ => ⟨S4x100x20x1, .i1⟩
  | .hbm, ⟨24, _⟩ => ⟨S4x100x20x1, .i1⟩
  | .hbm, ⟨25, _⟩ => ⟨S_, .i1⟩
  | .hbm, ⟨26, _⟩ => ⟨S4x100x20, .i1⟩
  | .hbm, ⟨27, _⟩ => ⟨S4x100x20, .f32⟩
  | .hbm, ⟨28, _⟩ => ⟨S_, .f32⟩
  | .hbm, ⟨29, _⟩ => ⟨S4x100x20, .f32⟩
  | .hbm, ⟨30, _⟩ => ⟨S4x100x20, .f32⟩
  | .hbm, ⟨31, _⟩ => ⟨S4x100x20, .f32⟩
  | .hbm, ⟨32, _⟩ => ⟨S_, .f32⟩
  | .hbm, ⟨33, _⟩ => ⟨S4x100x20, .f32⟩
  | .hbm, ⟨34, _⟩ => ⟨S4x100x20, .f32⟩
  | .hbm, ⟨35, _⟩ => ⟨S_, .f32⟩
  | .hbm, ⟨36, _⟩ => ⟨S4x100x20, .f32⟩
  | .hbm, ⟨37, _⟩ => ⟨S4x100x20, .f32⟩
  | .hbm, ⟨38, _⟩ => ⟨S_, .f32⟩
  | .hbm, ⟨39, _⟩ => ⟨S4x100x20, .f32⟩
  | .hbm, ⟨40, _⟩ => ⟨S4x100x20, .f32⟩
  | .hbm, ⟨41, _⟩ => ⟨S4x100x20, .f32⟩
  | .local _ .vmem, ⟨0, _⟩ => ⟨S1x100x8192, .f32⟩
  | .local _ .vmem, ⟨1, _⟩ => ⟨S1x100x8192, .f32⟩
  | .local _ .vmem, ⟨2, _⟩ => ⟨S1x20x8192, .f32⟩
  | .local _ .vmem, ⟨3, _⟩ => ⟨S1x20x8192, .f32⟩
  | .local _ .vmem, ⟨4, _⟩ => ⟨S1x100x20, .f32⟩
  | .local _ .vmem, ⟨5, _⟩ => ⟨S1x100x20, .f32⟩
  | .local _ .vmem, ⟨6, _⟩ => ⟨S100x20, .f32⟩
  | .local _ .vmem, ⟨7, _⟩ => ⟨S100x1, .f32⟩
  | .local _ .vmem, ⟨8, _⟩ => ⟨S1x20, .f32⟩
  | _, _ => ⟨S4x100x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_21 : BitVec 32 := 0#32
  let v34 : BitVec 1 := Scalar.cmpi .ne v33 c0_i32_21
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x20x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x100x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x100x256x256_S4x100x65536 : S4x100x256x256.ShapeCasts S4x100x65536
  shapeCasts_S4x20x256x256_S4x20x65536 : S4x20x256x256.ShapeCasts S4x20x65536
  inb_S100x20_S100x20_0_0 : ∀ a, (![0, 0] : Fin 2 → Nat) a + S100x20.size a ≤ S100x20.size a
  h_S100x20 : 0 < S100x20.numel
  shapeCasts_S100x20_S100x20 : S100x20.ShapeCasts S100x20
  inb_S100x1_S100x1_0_0 : ∀ a, (![0, 0] : Fin 2 → Nat) a + S100x1.size a ≤ S100x1.size a
  h_S100x1 : 0 < S100x1.numel
  shapeCasts_S100x1_S100x1 : S100x1.ShapeCasts S100x1
  inb_S1x20_S1x20_0_0 : ∀ a, (![0, 0] : Fin 2 → Nat) a + S1x20.size a ≤ S1x20.size a
  h_S1x20 : 0 < S1x20.numel
  shapeCasts_S1x20_S1x20 : S1x20.ShapeCasts S1x20
  inb_S1x100x8192_S1x100x8192_0_0_0 : ∀ a, (![0, 0, 0] : Fin 3 → Nat) a + S1x100x8192.size a ≤ S1x100x8192.size a
  h_S1x100x8192 : 0 < S1x100x8192.numel
  shapeCasts_S1x100x8192_S100x8192 : S1x100x8192.ShapeCasts S100x8192
  inb_S1x20x8192_S1x20x8192_0_0_0 : ∀ a, (![0, 0, 0] : Fin 3 → Nat) a + S1x20x8192.size a ≤ S1x20x8192.size a
  h_S1x20x8192 : 0 < S1x20x8192.numel
  shapeCasts_S1x20x8192_S20x8192 : S1x20x8192.ShapeCasts S20x8192
  bitsLt_bf16_f32 : FTy.bits .bf16 < FTy.bits .f32
  transposes_S20x8192_p1_0_S8192x20 : S20x8192.Transposes [1, 0] S8192x20
  reduces_S100x8192_S100 : S100x8192.Reduces [1] S100
  shapeCasts_S100_S100x1 : S100.ShapeCasts S100x1
  broadcasts_S100x1_S100x20 : S100x1.Broadcasts S100x20
  broadcasts_S1x20_S100x20 : S1x20.Broadcasts S100x20
  inb_S1x100x20_S1x100x20_0_0_0 : ∀ a, (![0, 0, 0] : Fin 3 → Nat) a + S1x100x20.size a ≤ S1x100x20.size a
  h_S1x100x20 : 0 < S1x100x20.numel
  shapeCasts_S1x100x20_S100x20 : S1x100x20.ShapeCasts S100x20
  shapeCasts_S100x20_S1x100x20 : S100x20.ShapeCasts S1x100x20
  bcast_S4x20_S4x1x20_0_2 : S4x20.BroadcastsInDim S4x1x20 (![0, 2] : Fin 2 → Fin S4x1x20.rank)
  bcast_S4x1x20_S4x100x20_0_1_2 : S4x1x20.BroadcastsInDim S4x100x20 (![0, 1, 2] : Fin 3 → Fin S4x100x20.rank)
  bcast_S_S4x100x20 : S_.BroadcastsInDim S4x100x20 (![] : Fin 0 → Fin S4x100x20.rank)
  shapeCasts_S4x100x20_S4x100x20x1 : S4x100x20.ShapeCasts S4x100x20x1
  bcast_S_S4x100x20x1 : S_.BroadcastsInDim S4x100x20x1 (![] : Fin 0 → Fin S4x100x20x1.rank)
  bcast_S1_S1x1x1x1_3 : S1.BroadcastsInDim S1x1x1x1 (![3] : Fin 1 → Fin S1x1x1x1.rank)
  bcast_S1x1x1x1_S4x100x20x1_0_1_2_3 : S1x1x1x1.BroadcastsInDim S4x100x20x1 (![0, 1, 2, 3] : Fin 4 → Fin S4x100x20x1.rank)
  reducesTo_S4x100x20x1_S4x100x20_d3 : S4x100x20x1.ReducesTo [3] S4x100x20
  h_S_ : 0 < S_.numel
  dot_S100x8192_S8192x20_S100x20_1_0_0_1_n_n_wf : DotDims.WF S100x8192 S8192x20 S100x20 [1] [0] [0] [1] [] []
  dot_S1x8192_S8192x20_S1x20_1_0_0_1_n_n_wf : DotDims.WF S1x8192 S8192x20 S1x20 [1] [0] [0] [1] [] []
  gather_S4x100x81_S4x100x20x1_S4x100x20_n_2_01_01_2_3_111_wf : GatherDims.WF S4x100x81 S4x100x20x1 S4x100x20 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x8192.size a ≤ S4x100x65536.size a
  hwx0_0 : ∀ i : grid0.Coords, EltTy.bits .f32 = 32 ∨ (Rect.block (s := S4x100x65536) S1x100x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x20x8192.size a ≤ S4x20x65536.size a
  hwx0_1 : ∀ i : grid0.Coords, EltTy.bits .f32 = 32 ∨ (Rect.block (s := S4x20x65536) S1x20x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x20.size a ≤ S4x100x20.size a
  hwx0_2 : ∀ i : grid0.Coords, EltTy.bits .f32 = 32 ∨ (Rect.block (s := S4x100x20) S1x100x20.size (cc0_transform_2 i) (hinb0_2 i)).WholeWords (EltTy.packing .f32)

variable [Facts₀]

def dot_S100x8192_S8192x20_S100x20_1_0_0_1_n_n : DotDims S100x8192 S8192x20 S100x20 where
  lhsContracting := [1]
  rhsContracting := [0]
  lhsNonContracting := [0]
  rhsNonContracting := [1]
  lhsBatch := []
  rhsBatch := []
  wf := dot_S100x8192_S8192x20_S100x20_1_0_0_1_n_n_wf
def dot_S1x8192_S8192x20_S1x20_1_0_0_1_n_n : DotDims S1x8192 S8192x20 S1x20 where
  lhsContracting := [1]
  rhsContracting := [0]
  lhsNonContracting := [0]
  rhsNonContracting := [1]
  lhsBatch := []
  rhsBatch := []
  wf := dot_S1x8192_S8192x20_S1x20_1_0_0_1_n_n_wf
def gather_S4x100x81_S4x100x20x1_S4x100x20_n_2_01_01_2_3_111 : GatherDims S4x100x81 S4x100x20x1 S4x100x20 where
  offsetDims := []
  collapsedSliceDims := [2]
  operandBatchingDims := [0, 1]
  startIndicesBatchingDims := [0, 1]
  startIndexMap := [2]
  indexVectorDim := 3
  sliceSizes := ![1, 1, 1]
  wf := gather_S4x100x81_S4x100x20x1_S4x100x20_n_2_01_01_2_3_111_wf

abbrev win0_0 : Pipeline.Window sig grid0 :=
  Pipeline.Window.ofSpec (Memref.whole main_v0) S1x100x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x20x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x100x20.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x100x81 : Shape := ⟨3, ![4, 100, 81]⟩
abbrev S4x100x256x256 : Shape := ⟨4, ![4, 100, 256, 256]⟩
abbrev S4x20 : Shape := ⟨2, ![4, 20]⟩
abbrev S4x20x256x256 : Shape := ⟨4, ![4, 20, 256, 256]⟩
abbrev S4x1x20 : Shape := ⟨3, ![4, 1, 20]⟩
abbrev S4x100x20 : Shape := ⟨3, ![4, 100, 20]⟩
abbrev S_ : Shape := ⟨0, ![]⟩
abbrev S4x100x20x1 : Shape := ⟨4, ![4, 100, 20, 1]⟩
abbrev S1 : Shape := ⟨1, ![1]⟩
abbrev S1x1x1x1 : Shape := ⟨4, ![1, 1, 1, 1]⟩
abbrev S4x100x65536 : Shape := ⟨3, ![4, 100, 65536]⟩
abbrev S4x20x65536 : Shape := ⟨3, ![4, 20, 65536]⟩
abbrev S4x100 : Shape := ⟨2, ![4, 100]⟩
abbrev S4x100x1 : Shape := ⟨3, ![4, 100, 1]⟩

abbrev nBuf : Space → Nat
  | .hbm => 90
  | .vmem => 0
  | .smem => 0
  | _ => 0

abbrev bufTy : (tb : Table) → Fin (tcTables nBuf tb) → BufTy
  | .hbm, ⟨0, _⟩ => ⟨S4x100x81, .f32⟩
  | .hbm, ⟨1, _⟩ => ⟨S4x100x256x256, .f32⟩
  | .hbm, ⟨2, _⟩ => ⟨S4x20, .i32⟩
  | .hbm, ⟨3, _⟩ => ⟨S4x20x256x256, .f32⟩
  | .hbm, ⟨4, _⟩ => ⟨S4x1x20, .i32⟩
  | .hbm, ⟨5, _⟩ => ⟨S4x100x20, .i32⟩
  | .hbm, ⟨6, _⟩ => ⟨S_, .i32⟩
  | .hbm, ⟨7, _⟩ => ⟨S4x100x20, .i32⟩
  | .hbm, ⟨8, _⟩ => ⟨S4x100x20, .i1⟩
  | .hbm, ⟨9, _⟩ => ⟨S_, .i32⟩
  | .hbm, ⟨10, _⟩ => ⟨S4x100x20, .i32⟩
  | .hbm, ⟨11, _⟩ => ⟨S4x100x20, .i32⟩
  | .hbm, ⟨12, _⟩ => ⟨S4x100x20, .i32⟩
  | .hbm, ⟨13, _⟩ => ⟨S4x100x20x1, .i32⟩
  | .hbm, ⟨14, _⟩ => ⟨S1, .i32⟩
  | .hbm, ⟨15, _⟩ => ⟨S_, .i32⟩
  | .hbm, ⟨16, _⟩ => ⟨S4x100x20x1, .i32⟩
  | .hbm, ⟨17, _⟩ => ⟨S4x100x20x1, .i1⟩
  | .hbm, ⟨18, _⟩ => ⟨S1x1x1x1, .i32⟩
  | .hbm, ⟨19, _⟩ => ⟨S4x100x20x1, .i32⟩
  | .hbm, ⟨20, _⟩ => ⟨S4x100x20x1, .i1⟩
  | .hbm, ⟨21, _⟩ => ⟨S4x100x20x1, .i1⟩
  | .hbm, ⟨22, _⟩ => ⟨S_, .i1⟩
  | .hbm, ⟨23, _⟩ => ⟨S4x100x20, .i1⟩
  | .hbm, ⟨24, _⟩ => ⟨S4x100x20, .f32⟩
  | .hbm, ⟨25, _⟩ => ⟨S_, .f32⟩
  | .hbm, ⟨26, _⟩ => ⟨S4x100x20, .f32⟩
  | .hbm, ⟨27, _⟩ => ⟨S4x100x20, .f32⟩
  | .hbm, ⟨28, _⟩ => ⟨S4x100x20, .f32⟩
  | .hbm, ⟨29, _⟩ => ⟨S4x100x65536, .f32⟩
  | .hbm, ⟨30, _⟩ => ⟨S4x100x65536, .f32⟩
  | .hbm, ⟨31, _⟩ => ⟨S4x100x65536, .f32⟩
  | .hbm, ⟨32, _⟩ => ⟨S_, .f32⟩
  | .hbm, ⟨33, _⟩ => ⟨S4x100x65536, .f32⟩
  | .hbm, ⟨34, _⟩ => ⟨S4x100x65536, .f32⟩
  | .hbm, ⟨35, _⟩ => ⟨S_, .f32⟩
  | .hbm, ⟨36, _⟩ => ⟨S4x100x65536, .f32⟩
  | .hbm, ⟨37, _⟩ => ⟨S4x100x65536, .f32⟩
  | .hbm, ⟨38, _⟩ => ⟨S4x20x65536, .f32⟩
  | .hbm, ⟨39, _⟩ => ⟨S4x100x20, .f32⟩
  | .hbm, ⟨40, _⟩ => ⟨S4x100x20, .f32⟩
  | .hbm, ⟨41, _⟩ => ⟨S_, .f32⟩
  | .hbm, ⟨42, _⟩ => ⟨S4x100x20, .f32⟩
  | .hbm, ⟨43, _⟩ => ⟨S4x100x20, .f32⟩
  | .hbm, ⟨44, _⟩ => ⟨S_, .f32⟩
  | .hbm, ⟨45, _⟩ => ⟨S4x100x65536, .f32⟩
  | .hbm, ⟨46, _⟩ => ⟨S4x100x65536, .f32⟩
  | .hbm, ⟨47, _⟩ => ⟨S_, .f32⟩
  | .hbm, ⟨48, _⟩ => ⟨S4x20x65536, .f32⟩
  | .hbm, ⟨49, _⟩ => ⟨S4x20x65536, .f32⟩
  | .hbm, ⟨50, _⟩ => ⟨S4x100x20, .f32⟩
  | .hbm, ⟨51, _⟩ => ⟨S4x100x20, .f32⟩
  | .hbm, ⟨52, _⟩ => ⟨S_, .f32⟩
  | .hbm, ⟨53, _⟩ => ⟨S4x100x20, .f32⟩
  | .hbm, ⟨54, _⟩ => ⟨S4x100x20, .f32⟩
  | .hbm, ⟨55, _⟩ => ⟨S4x100x20, .f32⟩
  | .hbm, ⟨56, _⟩ => ⟨S4x100x20, .f32⟩
  | .hbm, ⟨57, _⟩ => ⟨S_, .f32⟩
  | .hbm, ⟨58, _⟩ => ⟨S4x100x20, .f32⟩
  | .hbm, ⟨59, _⟩ => ⟨S4x100x20, .f32⟩
  | .hbm, ⟨60, _⟩ => ⟨S_, .f32⟩
  | .hbm, ⟨61, _⟩ => ⟨S4x100, .f32⟩
  | .hbm, ⟨62, _⟩ => ⟨S4x100x1, .f32⟩
  | .hbm, ⟨63, _⟩ => ⟨S_, .f32⟩
  | .hbm, ⟨64, _⟩ => ⟨S4x20, .f32⟩
  | .hbm, ⟨65, _⟩ => ⟨S4x1x20, .f32⟩
  | .hbm, ⟨66, _⟩ => ⟨S4x100x20, .f32⟩
  | .hbm, ⟨67, _⟩ => ⟨S4x100x20, .f32⟩
  | .hbm, ⟨68, _⟩ => ⟨S4x100x20, .f32⟩
  | .hbm, ⟨69, _⟩ => ⟨S_, .f32⟩
  | .hbm, ⟨70, _⟩ => ⟨S4x100x20, .f32⟩
  | .hbm, ⟨71, _⟩ => ⟨S4x100x20, .f32⟩
  | .hbm, ⟨72, _⟩ => ⟨S_, .f32⟩
  | .hbm, ⟨73, _⟩ => ⟨S4x100x20, .f32⟩
  | .hbm, ⟨74, _⟩ => ⟨S4x100x20, .f32⟩
  | .hbm, ⟨75, _⟩ => ⟨S4x100x20, .f32⟩
  | .hbm, ⟨76, _⟩ => ⟨S_, .f32⟩
  | .hbm, ⟨77, _⟩ => ⟨S4x100x20, .f32⟩
  | .hbm, ⟨78, _⟩ => ⟨S4x100x20, .f32⟩
  | .hbm, ⟨79, _⟩ => ⟨S_, .f32⟩
  | .hbm, ⟨80, _⟩ => ⟨S4x100x20, .f32⟩
  | .hbm, ⟨81, _⟩ => ⟨S4x100x20, .f32⟩
  | .hbm, ⟨82, _⟩ => ⟨S_, .f32⟩
  | .hbm, ⟨83, _⟩ => ⟨S4x100x20, .f32⟩
  | .hbm, ⟨84, _⟩ => ⟨S4x100x20, .f32⟩
  | .hbm, ⟨85, _⟩ => ⟨S4x100x20, .f32⟩
  | .hbm, ⟨86, _⟩ => ⟨S_, .f32⟩
  | .hbm, ⟨87, _⟩ => ⟨S4x100x20, .f32⟩
  | .hbm, ⟨88, _⟩ => ⟨S4x100x20, .f32⟩
  | .hbm, ⟨89, _⟩ => ⟨S4x100x20, .f32⟩
  | _, _ => ⟨S4x100x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_4 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_5 : Ref sig .tc := ⟨.hbm, 57, rfl⟩
abbrev main_v26 : Ref sig .tc := ⟨.hbm, 58, rfl⟩
abbrev main_v27 : Ref sig .tc := ⟨.hbm, 59, rfl⟩
abbrev main_cst_6 : Ref sig .tc := ⟨.hbm, 60, rfl⟩
abbrev main_v28 : Ref sig .tc := ⟨.hbm, 61, rfl⟩
abbrev main_v29 : Ref sig .tc := ⟨.hbm, 62, rfl⟩
abbrev main_cst_7 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_8 : Ref sig .tc := ⟨.hbm, 69, rfl⟩
abbrev main_v35 : Ref sig .tc := ⟨.hbm, 70, rfl⟩
abbrev main_v36 : Ref sig .tc := ⟨.hbm, 71, rfl⟩
abbrev main_cst_9 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_10 : Ref sig .tc := ⟨.hbm, 76, rfl⟩
abbrev main_v40 : Ref sig .tc := ⟨.hbm, 77, rfl⟩
abbrev main_v41 : Ref sig .tc := ⟨.hbm, 78, rfl⟩
abbrev main_cst_11 : Ref sig .tc := ⟨.hbm, 79, rfl⟩
abbrev main_v42 : Ref sig .tc := ⟨.hbm, 80, rfl⟩
abbrev main_v43 : Ref sig .tc := ⟨.hbm, 81, rfl⟩
abbrev main_cst_12 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_13 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩

abbrev nD : Nat := 1
abbrev τ : Topo := Topo.v7x

variable {F : FTy → Type} [FloatOps F]

class Facts₀ : Prop where
  bcast_S4x20_S4x1x20_0_2 : S4x20.BroadcastsInDim S4x1x20 (![0, 2] : Fin 2 → Fin S4x1x20.rank)
  bcast_S4x1x20_S4x100x20_0_1_2 : S4x1x20.BroadcastsInDim S4x100x20 (![0, 1, 2] : Fin 3 → Fin S4x100x20.rank)
  bcast_S_S4x100x20 : S_.BroadcastsInDim S4x100x20 (![] : Fin 0 → Fin S4x100x20.rank)
  shapeCasts_S4x100x20_S4x100x20x1 : S4x100x20.ShapeCasts S4x100x20x1
  bcast_S_S4x100x20x1 : S_.BroadcastsInDim S4x100x20x1 (![] : Fin 0 → Fin S4x100x20x1.rank)
  bcast_S1_S1x1x1x1_3 : S1.BroadcastsInDim S1x1x1x1 (![3] : Fin 1 → Fin S1x1x1x1.rank)
  bcast_S1x1x1x1_S4x100x20x1_0_1_2_3 : S1x1x1x1.BroadcastsInDim S4x100x20x1 (![0, 1, 2, 3] : Fin 4 → Fin S4x100x20x1.rank)
  reducesTo_S4x100x20x1_S4x100x20_d3 : S4x100x20x1.ReducesTo [3] S4x100x20
  h_S_ : 0 < S_.numel
  shapeCasts_S4x100x256x256_S4x100x65536 : S4x100x256x256.ShapeCasts S4x100x65536
  bcast_S_S4x100x65536 : S_.BroadcastsInDim S4x100x65536 (![] : Fin 0 → Fin S4x100x65536.rank)
  shapeCasts_S4x20x256x256_S4x20x65536 : S4x20x256x256.ShapeCasts S4x20x65536
  bcast_S_S4x20x65536 : S_.BroadcastsInDim S4x20x65536 (![] : Fin 0 → Fin S4x20x65536.rank)
  reducesTo_S4x100x65536_S4x100_d2 : S4x100x65536.ReducesTo [2] S4x100
  bcast_S4x100_S4x100x1_0_1 : S4x100.BroadcastsInDim S4x100x1 (![0, 1] : Fin 2 → Fin S4x100x1.rank)
  reducesTo_S4x20x65536_S4x20_d2 : S4x20x65536.ReducesTo [2] S4x20
  bcast_S4x100x1_S4x100x20_0_1_2 : S4x100x1.BroadcastsInDim S4x100x20 (![0, 1, 2] : Fin 3 → Fin S4x100x20.rank)
  gather_S4x100x81_S4x100x20x1_S4x100x20_n_2_01_01_2_3_111_wf : GatherDims.WF S4x100x81 S4x100x20x1 S4x100x20 [] [2] [0, 1] [2] [0, 1] 3 ![1, 1, 1]
  dot_S4x100x65536_S4x20x65536_S4x100x20_2_2_1_1_0_0_wf : DotDims.WF S4x100x65536 S4x20x65536 S4x100x20 [2] [2] [1] [1] [0] [0]

variable [Facts₀]

def gather_S4x100x81_S4x100x20x1_S4x100x20_n_2_01_01_2_3_111 : GatherDims S4x100x81 S4x100x20x1 S4x100x20 where
  offsetDims := []
  collapsedSliceDims := [2]
  operandBatchingDims := [0, 1]
  startIndicesBatchingDims := [0, 1]
  startIndexMap := [2]
  indexVectorDim := 3
  sliceSizes := ![1, 1, 1]
  wf := gather_S4x100x81_S4x100x20x1_S4x100x20_n_2_01_01_2_3_111_wf
def dot_S4x100x65536_S4x20x65536_S4x100x20_2_2_1_1_0_0 : DotDims S4x100x65536 S4x20x65536 S4x100x20 where
  lhsContracting := [2]
  rhsContracting := [2]
  lhsNonContracting := [1]
  rhsNonContracting := [1]
  lhsBatch := [0]
  rhsBatch := [0]
  wf := dot_S4x100x65536_S4x20x65536_S4x100x20_2_2_1_1_0_0_wf

class Facts : Prop extends Facts₀ where

variable [Facts]
-- ==== Proof.FiniteInputs.lean ====
/-
  The precondition "finite inputs", decoded.

  The precondition is the one-bit value
      all(|arg0| < +inf)  and  all(|arg1| < +inf)  and  all(|arg3| < +inf)
  of the three float input arrays, where each `all` is a reduction by `and` over every axis of the array of
  one-bit comparisons, started from the bit 1. Over the extended reals (the ideal reading of a float: a real
  number, or one of the two infinities, the lower one also standing for "not a number") the pattern
  0x7F800000 denotes the upper infinity, and |x| is max x (-x). So the precondition being 1 says, of every entry
  x of each array, that max x (-x) is strictly below the upper infinity — which rules out both infinities and
  leaves x a real number.

  Derived here, for the second and the fourth argument: every entry is (the embedding of) a real number.
-/
import proofs.«121014_j8177617731832_1_alg».proof.Pre_finite_inputs
import proofs.«121014_j8177617731832_1_alg».proof.Proof.Gen.Pre_finite_inputs
import Idealize.ShloMosaic.PureOps.Ideal
import Idealize.ShloMosaic.Lib.Affine
import Idealize.ShloMosaic.Lib.ReduceAll
import Idealize.ShloMosaic.Lib.ValueIdx

noncomputable section

namespace Cert.FiniteInputs

open Idealize.ShloMosaic
open Cert.Pre_finite_inputs

/-- The 32-bit pattern 0x7F800000 denotes the upper infinity of the extended reals. -/
theorem inf_pattern : Ideal.ofBits .f32 0x7F800000#32 = (⊤ : EReal) := by
  simp [Ideal.ofBits, Ideal.ieee]

/-- An extended real whose absolute value max x (-x) compares strictly below the upper infinity is a real number:
    at either infinity the absolute value is the upper infinity itself, which is not strictly below itself. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => exfalso; revert h; simp [Ideal.cmp]
  | coe r => exact ⟨r, rfl⟩
  | top => exfalso; revert h; simp [Ideal.cmp]

/-- If the precondition evaluates to the bit 1 on extended-real inputs, then every entry of the second argument
    and every entry of the fourth argument is a real number. -/
theorem real_entries [Cert.Pre_finite_inputs.Facts]
    (x0 : FVec Ideal S4x100x81 .f32) (x1 : FVec Ideal S4x100x256x256 .f32) (x2 : IVec S4x20 32)
    (x3 : FVec Ideal S4x20x256x256 .f32)
    (h : Cert.Pre_finite_inputs.fn (F := Ideal) x0 x1 x2 x3 = fun _ => 1#1) :
    (∀ j : S4x100x256x256.Idx, ∃ r : ℝ, x1 j = (r : EReal)) ∧
      (∀ j : S4x20x256x256.Idx, ∃ r : ℝ, x3 j = (r : EReal)) := by
  haveI : Subsingleton S_.Idx := ⟨fun a b => funext fun d => d.elim0⟩
  have h0 := congrFun h ValueIdx.ix0
  dsimp only [Cert.Pre_finite_inputs.fn] at h0
  obtain ⟨h01, h3⟩ := IntOp.andi_eq_one.1 h0
  obtain ⟨-, h1⟩ := IntOp.andi_eq_one.1 h01
  refine ⟨fun j => ?_, fun j => ?_⟩
  · exact real_of_abs_lt_inf (x1 j) (Host.reduce_andi_all _ _ _ _ _ h1 j)
  · exact real_of_abs_lt_inf (x3 j) (Host.reduce_andi_all _ _ _ _ _ h3 j)

end Cert.FiniteInputs

end
-- ==== Proof.Pieces.lean ====
/-
  What each control case of the kernel body leaves in the three carried accumulators and in the output block,
  as the body's pure payloads of the loaded blocks. The running dot products p·tᵀ, the running row sums of the
  sigmoid block p and the running row sums of the target block t are each "previous contents + this tile's
  contribution". At the first tile of a batch the previous contents are the zero block the body has just stored;
  at the last tile the body also stores the cost computed from the three accumulators it has just updated.
-/
import proofs.«121014_j8177617731832_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Cert.KernelIdeal Cert.KernelIdeal.Gen
namespace Cert.KernelIdeal.Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle tile: each accumulator is its previous contents plus the tile's contribution -/

theorem sB0 (c : Dev nD) (i : grid0.Coords) (a2 : Memref sig .tc .vmem S1x100x8192 .f32) (h2 : a2.IsWhole) (a3 : Memref sig .tc .vmem S1x20x8192 .f32) (h3 : a3.IsWhole) (a4 : Memref sig .tc .vmem S1x100x20 .f32) (h4 : a4.IsWhole) (a5 : Memref sig .tc .vmem S100x20 .f32) (h5 : a5.IsWhole) (a6 : Memref sig .tc .vmem S100x1 .f32) (h6 : a6.IsWhole) (a7 : Memref sig .tc .vmem S1x20 .f32) (h7 : a7.IsWhole) (hc0 : ¬cond0_0 i) (hc1 : ¬cond0_1 i) (x0 : Vec F S1x100x8192 .f32) (x1 : Vec F S1x20x8192 .f32) (xs0 : Vec F S100x20 .f32) (xs1 : Vec F S100x1 .f32) (xs2 : Vec F S1x20 .f32) :
    sout0_B_0 c i a2 h2 a3 h3 a4 h4 a5 h5 a6 h6 a7 h7 hc0 hc1 x0 x1 xs0 xs1 xs2 = k0_pay8 x0 x1 xs0 := by
  unfold sout0_B_0
  rw [View.read_writes_eq_canon _ _ _ (scover0_B_0 c i a2 h2 a3 h3 a4 h4 a5 h5 a6 h6 a7 h7 hc0 hc1 x0 x1 xs0 xs1 xs2)]
  unfold kernelRun0_B
  dsimp only
  try sl_unfold_words

  rw [View.canon_unit_zero hz2]
  simp only [View.readAt_eq_ld, h2.read_unread, h3.read_unread, h5.read_unread, h6.read_unread, h7.read_unread, View.ld_unit_zero (S := S1x100x8192) hz3, View.ld_unit_zero (S := S1x20x8192) hz3, View.ld_unit_zero (S := S100x20) hz2, View.ld_unit_zero (S := S100x1) hz2, View.ld_unit_zero (S := S1x20) hz2]

theorem sB1 (c : Dev nD) (i : grid0.Coords) (a2 : Memref sig .tc .vmem S1x100x8192 .f32) (h2 : a2.IsWhole) (a3 : Memref sig .tc .vmem S1x20x8192 .f32) (h3 : a3.IsWhole) (a4 : Memref sig .tc .vmem S1x100x20 .f32) (h4 : a4.IsWhole) (a5 : Memref sig .tc .vmem S100x20 .f32) (h5 : a5.IsWhole) (a6 : Memref sig .tc .vmem S100x1 .f32) (h6 : a6.IsWhole) (a7 : Memref sig .tc .vmem S1x20 .f32) (h7 : a7.IsWhole) (hc0 : ¬cond0_0 i) (hc1 : ¬cond0_1 i) (x0 : Vec F S1x100x8192 .f32) (x1 : Vec F S1x20x8192 .f32) (xs0 : Vec F S100x20 .f32) (xs1 : Vec F S100x1 .f32) (xs2 : Vec F S1x20 .f32) :
    sout0_B_1 c i a2 h2 a3 h3 a4 h4 a5 h5 a6 h6 a7 h7 hc0 hc1 x0 x1 xs0 xs1 xs2 = k0_pay9 x0 xs1 := by
  unfold sout0_B_1
  rw [View.read_writes_eq_canon _ _ _ (scover0_B_1 c i a2 h2 a3 h3 a4 h4 a5 h5 a6 h6 a7 h7 hc0 hc1 x0 x1 xs0 xs1 xs2)]
  unfold kernelRun0_B
  dsimp only
  try sl_unfold_words
  rw [View.canon_unit_zero hz2]
  simp only [View.readAt_eq_ld, h2.read_unread, h3.read_unread, h5.read_unread, h6.read_unread, h7.read_unread, View.ld_unit_zero (S := S1x100x8192) hz3, View.ld_unit_zero (S := S1x20x8192) hz3, View.ld_unit_zero (S := S100x20) hz2, View.ld_unit_zero (S := S100x1) hz2, View.ld_unit_zero (S := S1x20) hz2]

theorem sB2 (c : Dev nD) (i : grid0.Coords) (a2 : Memref sig .tc .vmem S1x100x8192 .f32) (h2 : a2.IsWhole) (a3 : Memref sig .tc .vmem S1x20x8192 .f32) (h3 : a3.IsWhole) (a4 : Memref sig .tc .vmem S1x100x20 .f32) (h4 : a4.IsWhole) (a5 : Memref sig .tc .vmem S100x20 .f32) (h5 : a5.IsWhole) (a6 : Memref sig .tc .vmem S100x1 .f32) (h6 : a6.IsWhole) (a7 : Memref sig .tc .vmem S1x20 .f32) (h7 : a7.IsWhole) (hc0 : ¬cond0_0 i) (hc1 : ¬cond0_1 i) (x0 : Vec F S1x100x8192 .f32) (x1 : Vec F S1x20x8192 .f32) (xs0 : Vec F S100x20 .f32) (xs1 : Vec F S100x1 .f32) (xs2 : Vec F S1x20 .f32) :
    sout0_B_2 c i a2 h2 a3 h3 a4 h4 a5 h5 a6 h6 a7 h7 hc0 hc1 x0 x1 xs0 xs1 xs2 = k0_pay1 (k0_pay10 x1 xs2) := by
  unfold sout0_B_2
  rw [View.read_writes_eq_canon _ _ _ (scover0_B_2 c i a2 h2 a3 h3 a4 h4 a5 h5 a6 h6 a7 h7 hc0 hc1 x0 x1 xs0 xs1 xs2)]
  unfold kernelRun0_B
  dsimp only
  try sl_unfold_words

  rw [View.canon_unit_zero hz2]
  simp only [View.readAt_eq_ld, h2.read_unread, h3.read_unread, h5.read_unread, h6.read_unread, h7.read_unread, View.ld_unit_zero (S := S1x100x8192) hz3, View.ld_unit_zero (S := S1x20x8192) hz3, View.ld_unit_zero (S := S100x20) hz2, View.ld_unit_zero (S := S100x1) hz2, View.ld_unit_zero (S := S1x20) hz2]

/-! ## The last tile: the same three updates, and the cost stored from the updated accumulators -/

theorem sC0 (c : Dev nD) (i : grid0.Coords) (a2 : Memref sig .tc .vmem S1x100x8192 .f32) (h2 : a2.IsWhole) (a3 : Memref sig .tc .vmem S1x20x8192 .f32) (h3 : a3.IsWhole) (a4 : Memref sig .tc .vmem S1x100x20 .f32) (h4 : a4.IsWhole) (a5 : Memref sig .tc .vmem S100x20 .f32) (h5 : a5.IsWhole) (a6 : Memref sig .tc .vmem S100x1 .f32) (h6 : a6.IsWhole) (a7 : Memref sig .tc .vmem S1x20 .f32) (h7 : a7.IsWhole) (hc0 : ¬cond0_0 i) (hc1 : cond0_1 i) (x0 : Vec F S1x100x8192 .f32) (x1 : Vec F S1x20x8192 .f32) (xs0 : Vec F S100x20 .f32) (xs1 : Vec F S100x1 .f32) (xs2 : Vec F S1x20 .f32) :
    sout0_C_0 c i a2 h2 a3 h3 a4 h4 a5 h5 a6 h6 a7 h7 hc0 hc1 x0 x1 xs0 xs1 xs2 = k0_pay8 x0 x1 xs0 := by
  unfold sout0_C_0
  rw [View.read_writes_eq_canon _ _ _ (scover0_C_0 c i a2 h2 a3 h3 a4 h4 a5 h5 a6 h6 a7 h7 hc0 hc1 x0 x1 xs0 xs1 xs2)]
  unfold kernelRun0_C
  dsimp only
  try sl_unfold_words

  rw [View.canon_unit_zero hz2]
  simp only [View.readAt_eq_ld, h2.read_unread, h3.read_unread, h5.read_unread, h6.read_unread, h7.read_unread, View.ld_unit_zero (S := S1x100x8192) hz3, View.ld_unit_zero (S := S1x20x8192) hz3, View.ld_unit_zero (S := S100x20) hz2, View.ld_unit_zero (S := S100x1) hz2, View.ld_unit_zero (S := S1x20) hz2]

theorem sC1 (c : Dev nD) (i : grid0.Coords) (a2 : Memref sig .tc .vmem S1x100x8192 .f32) (h2 : a2.IsWhole) (a3 : Memref sig .tc .vmem S1x20x8192 .f32) (h3 : a3.IsWhole) (a4 : Memref sig .tc .vmem S1x100x20 .f32) (h4 : a4.IsWhole) (a5 : Memref sig .tc .vmem S100x20 .f32) (h5 : a5.IsWhole) (a6 : Memref sig .tc .vmem S100x1 .f32) (h6 : a6.IsWhole) (a7 : Memref sig .tc .vmem S1x20 .f32) (h7 : a7.IsWhole) (hc0 : ¬cond0_0 i) (hc1 : cond0_1 i) (x0 : Vec F S1x100x8192 .f32) (x1 : Vec F S1x20x8192 .f32) (xs0 : Vec F S100x20 .f32) (xs1 : Vec F S100x1 .f32) (xs2 : Vec F S1x20 .f32) :
    sout0_C_1 c i a2 h2 a3 h3 a4 h4 a5 h5 a6 h6 a7 h7 hc0 hc1 x0 x1 xs0 xs1 xs2 = k0_pay9 x0 xs1 := by
  unfold sout0_C_1
  rw [View.read_writes_eq_canon _ _ _ (scover0_C_1 c i a2 h2 a3 h3 a4 h4 a5 h5 a6 h6 a7 h7 hc0 hc1 x0 x1 xs0 xs1 xs2)]
  unfold kernelRun0_C
  dsimp only
  try sl_unfold_words
  rw [View.canon_unit_zero hz2]
  simp only [View.readAt_eq_ld, h2.read_unread, h3.read_unread, h5.read_unread, h6.read_unread, h7.read_unread, View.ld_unit_zero (S := S1x100x8192) hz3, View.ld_unit_zero (S := S1x20x8192) hz3, View.ld_unit_zero (S := S100x20) hz2, View.ld_unit_zero (S := S100x1) hz2, View.ld_unit_zero (S := S1x20) hz2]

theorem sC2 (c : Dev nD) (i : grid0.Coords) (a2 : Memref sig .tc .vmem S1x100x8192 .f32) (h2 : a2.IsWhole) (a3 : Memref sig .tc .vmem S1x20x8192 .f32) (h3 : a3.IsWhole) (a4 : Memref sig .tc .vmem S1x100x20 .f32) (h4 : a4.IsWhole) (a5 : Memref sig .tc .vmem S100x20 .f32) (h5 : a5.IsWhole) (a6 : Memref sig .tc .vmem S100x1 .f32) (h6 : a6.IsWhole) (a7 : Memref sig .tc .vmem S1x20 .f32) (h7 : a7.IsWhole) (hc0 : ¬cond0_0 i) (hc1 : cond0_1 i) (x0 : Vec F S1x100x8192 .f32) (x1 : Vec F S1x20x8192 .f32) (xs0 : Vec F S100x20 .f32) (xs1 : Vec F S100x1 .f32) (xs2 : Vec F S1x20 .f32) :
    sout0_C_2 c i a2 h2 a3 h3 a4 h4 a5 h5 a6 h6 a7 h7 hc0 hc1 x0 x1 xs0 xs1 xs2 = k0_pay1 (k0_pay10 x1 xs2) := by
  unfold sout0_C_2
  rw [View.read_writes_eq_canon _ _ _ (scover0_C_2 c i a2 h2 a3 h3 a4 h4 a5 h5 a6 h6 a7 h7 hc0 hc1 x0 x1 xs0 xs1 xs2)]
  unfold kernelRun0_C
  dsimp only
  try sl_unfold_words

  rw [View.canon_unit_zero hz2]
  simp only [View.readAt_eq_ld, h2.read_unread, h3.read_unread, h5.read_unread, h6.read_unread, h7.read_unread, View.ld_unit_zero (S := S1x100x8192) hz3, View.ld_unit_zero (S := S1x20x8192) hz3, View.ld_unit_zero (S := S100x20) hz2, View.ld_unit_zero (S := S100x1) hz2, View.ld_unit_zero (S := S1x20) hz2]

theorem oC2 (c : Dev nD) (i : grid0.Coords) (a2 : Memref sig .tc .vmem S1x100x8192 .f32) (h2 : a2.IsWhole) (a3 : Memref sig .tc .vmem S1x20x8192 .f32) (h3 : a3.IsWhole) (a4 : Memref sig .tc .vmem S1x100x20 .f32) (h4 : a4.IsWhole) (a5 : Memref sig .tc .vmem S100x20 .f32) (h5 : a5.IsWhole) (a6 : Memref sig .tc .vmem S100x1 .f32) (h6 : a6.IsWhole) (a7 : Memref sig .tc .vmem S1x20 .f32) (h7 : a7.IsWhole) (hc0 : ¬cond0_0 i) (hc1 : cond0_1 i) (x0 : Vec F S1x100x8192 .f32) (x1 : Vec F S1x20x8192 .f32) (xs0 : Vec F S100x20 .f32) (xs1 : Vec F S100x1 .f32) (xs2 : Vec F S1x20 .f32) :
    out0_C_2 c i a2 h2 a3 h3 a4 h4 a5 h5 a6 h6 a7 h7 hc0 hc1 x0 x1 xs0 xs1 xs2 = k0_pay2 (k0_pay9 x0 xs1) (k0_pay1 (k0_pay10 x1 xs2)) (k0_pay8 x0 x1 xs0) := by
  unfold out0_C_2
  rw [View.read_writes_eq_canon _ _ _ (cover0_C_2 c i a2 h2 a3 h3 a4 h4 a5 h5 a6 h6 a7 h7 hc0 hc1 x0 x1 xs0 xs1 xs2)]
  unfold kernelRun0_C
  dsimp only
  sl_unfold_words
  rw [View.canon_unit_zero hz3, View.readCov_unit_zero (S := S100x1) _ hz2, View.readCov_unit_zero (S := S1x20) _ hz2,
    View.readCov_unit_zero (S := S100x20) _ hz2]
  simp only [View.readAt_eq_ld, h2.read_unread, h3.read_unread, h5.read_unread, h6.read_unread, h7.read_unread, View.ld_unit_zero (S := S1x100x8192) hz3, View.ld_unit_zero (S := S1x20x8192) hz3, View.ld_unit_zero (S := S100x20) hz2, View.ld_unit_zero (S := S100x1) hz2, View.ld_unit_zero (S := S1x20) hz2]

/-! ## The first tile of a batch: the same updates over the zero blocks just stored -/

theorem sA0 (c : Dev nD) (i : grid0.Coords) (a2 : Memref sig .tc .vmem S1x100x8192 .f32) (h2 : a2.IsWhole) (a3 : Memref sig .tc .vmem S1x20x8192 .f32) (h3 : a3.IsWhole) (a4 : Memref sig .tc .vmem S1x100x20 .f32) (h4 : a4.IsWhole) (a5 : Memref sig .tc .vmem S100x20 .f32) (h5 : a5.IsWhole) (a6 : Memref sig .tc .vmem S100x1 .f32) (h6 : a6.IsWhole) (a7 : Memref sig .tc .vmem S1x20 .f32) (h7 : a7.IsWhole) (hc0 : cond0_0 i) (hc1 : ¬cond0_1 i) (x0 : Vec F S1x100x8192 .f32) (x1 : Vec F S1x20x8192 .f32) :
    sout0_A_0 c i a2 h2 a3 h3 a4 h4 a5 h5 a6 h6 a7 h7 hc0 hc1 x0 x1 = k0_pay8 x0 x1 (k0_pay3 (F := F)) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S100x20) hz2, View.readCov_unit_zero (S := S100x20) _ hz2]
  simp only [View.readAt_eq_ld, h2.read_unread, h3.read_unread, h5.read_unread, h6.read_unread, h7.read_unread, View.ld_unit_zero (S := S1x100x8192) hz3, View.ld_unit_zero (S := S1x20x8192) hz3, View.ld_unit_zero (S := S100x20) hz2, View.ld_unit_zero (S := S100x1) hz2, View.ld_unit_zero (S := S1x20) hz2]

theorem sA1 (c : Dev nD) (i : grid0.Coords) (a2 : Memref sig .tc .vmem S1x100x8192 .f32) (h2 : a2.IsWhole) (a3 : Memref sig .tc .vmem S1x20x8192 .f32) (h3 : a3.IsWhole) (a4 : Memref sig .tc .vmem S1x100x20 .f32) (h4 : a4.IsWhole) (a5 : Memref sig .tc .vmem S100x20 .f32) (h5 : a5.IsWhole) (a6 : Memref sig .tc .vmem S100x1 .f32) (h6 : a6.IsWhole) (a7 : Memref sig .tc .vmem S1x20 .f32) (h7 : a7.IsWhole) (hc0 : cond0_0 i) (hc1 : ¬cond0_1 i) (x0 : Vec F S1x100x8192 .f32) (x1 : Vec F S1x20x8192 .f32) :
    sout0_A_1 c i a2 h2 a3 h3 a4 h4 a5 h5 a6 h6 a7 h7 hc0 hc1 x0 x1 = k0_pay9 x0 (k0_pay4 (F := F)) := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S100x1) hz2, View.readCov_unit_zero (S := S100x1) _ hz2]
  simp only [View.readAt_eq_ld, h2.read_unread, h3.read_unread, h5.read_unread, h6.read_unread, h7.read_unread, View.ld_unit_zero (S := S1x100x8192) hz3, View.ld_unit_zero (S := S1x20x8192) hz3, View.ld_unit_zero (S := S100x20) hz2, View.ld_unit_zero (S := S100x1) hz2, View.ld_unit_zero (S := S1x20) hz2]

theorem sA2 (c : Dev nD) (i : grid0.Coords) (a2 : Memref sig .tc .vmem S1x100x8192 .f32) (h2 : a2.IsWhole) (a3 : Memref sig .tc .vmem S1x20x8192 .f32) (h3 : a3.IsWhole) (a4 : Memref sig .tc .vmem S1x100x20 .f32) (h4 : a4.IsWhole) (a5 : Memref sig .tc .vmem S100x20 .f32) (h5 : a5.IsWhole) (a6 : Memref sig .tc .vmem S100x1 .f32) (h6 : a6.IsWhole) (a7 : Memref sig .tc .vmem S1x20 .f32) (h7 : a7.IsWhole) (hc0 : cond0_0 i) (hc1 : ¬cond0_1 i) (x0 : Vec F S1x100x8192 .f32) (x1 : Vec F S1x20x8192 .f32) :
    sout0_A_2 c i a2 h2 a3 h3 a4 h4 a5 h5 a6 h6 a7 h7 hc0 hc1 x0 x1 = k0_pay1 (k0_pay10 x1 (k0_pay5 (F := F))) := by
  unfold sout0_A_2
  rw [View.read_writes_eq_canon _ _ _ (scover0_A_2 c i a2 h2 a3 h3 a4 h4 a5 h5 a6 h6 a7 h7 hc0 hc1 x0 x1)]
  unfold kernelRun0_A
  dsimp only
  sl_unfold_words
  rw [View.canon_cons_unit_zero (S := S1x20) hz2, View.readCov_unit_zero (S := S1x20) _ hz2]
  simp only [View.readAt_eq_ld, h2.read_unread, h3.read_unread, h5.read_unread, h6.read_unread, h7.read_unread, View.ld_unit_zero (S := S1x100x8192) hz3, View.ld_unit_zero (S := S1x20x8192) hz3, View.ld_unit_zero (S := S100x20) hz2, View.ld_unit_zero (S := S100x1) hz2, View.ld_unit_zero (S := S1x20) hz2]

end Cert.KernelIdeal.Pieces
end
-- ==== Proof.Algebra.lean ====
/-
  The real-number identities that join the two arrangements of the matching cost.

  With p and t real sequences of length L = 65536 and D = Σ p t, P = Σ p, T = Σ t, E = Σ (1 - p)(1 - t):
  expanding the product gives E = L - P - T + D, so the mask cost  (-D)/L + (-E)/L  is  (P + T - L - 2 D)/L.
  The dice cost  1 - (2 D + 1)/(P + T + 1)  is the same expression of D, P, T on both sides, whatever the
  quotient's convention at a zero denominator. A sum over L is the sum over its 8 consecutive tiles of 8192.
  The class cost c may be infinite (a label out of range reads "not a number"): it only ever meets the rest
  through additions, which are associative on the extended reals, so nothing is asked of it.
-/
import Idealize.ShloMosaic.PureOps.Ideal
import Idealize.ShloMosaic.PureOps.Ideal.Laws
import Idealize.ShloMosaic.Lib.IdealHost

noncomputable section

namespace Cert.CostAlgebra

open Idealize.ShloMosaic

/-! ## The float literals of the two programs, as the numbers they denote -/

theorem ofBits_65536 : Ideal.ofBits .f32 0x47800000#32 = ((65536 : ℝ) : EReal) := by
  simp [Ideal.ofBits, Ideal.ieee, -EReal.coe_mul]; norm_num

theorem ofBits_inv_65536 : Ideal.ofBits .f32 0x37800000#32 = ((1 / 65536 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-! ## A sum over 65536 as 8 tiles of 8192 -/

/-- The sum over the tiles s = 0 … 7 of the sums over a tile's 8192 positions k, at position 8192 s + k, is the sum
    over all 65536 positions (the position is written modulo 65536 so that it makes sense for every natural s). -/
theorem sum_tiles {M : Type*} [AddCommMonoid M] (f : Fin 65536 → M) :
    ∑ s ∈ Finset.range 8, ∑ k : Fin 8192, f ⟨(8192 * s + k.val) % 65536, Nat.mod_lt _ (by norm_num)⟩
      = ∑ l : Fin 65536, f l := by
  rw [Finset.sum_range (fun s => ∑ k : Fin 8192, f ⟨(8192 * s + k.val) % 65536, Nat.mod_lt _ (by norm_num)⟩)]
  rw [← Fintype.sum_prod_type']
  rw [← Equiv.sum_comp (finProdFinEquiv.trans (finCongr (by norm_num : 8 * 8192 = 65536))) f]
  refine Finset.sum_congr rfl fun x _ => congrArg f (Fin.ext ?_)
  show (8192 * x.1.val + x.2.val) % 65536 = x.2.val + 8192 * x.1.val
  have h1 := x.1.isLt
  have h2 := x.2.isLt
  omega

/-! ## Real sums inside the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The cost -/

/-- The kernel's cost of the row sum P, the target sum T and the dot product D. -/
def costOf (P T D : EReal) : EReal :=
  Ideal.div (((P + T) - Ideal.ofBits .f32 0x47800000#32) - Ideal.ofBits .f32 0x40000000#32 * D) (Ideal.ofBits .f32 0x47800000#32)
    + (Ideal.ofBits .f32 0x3F800000#32
        - Ideal.div (Ideal.ofBits .f32 0x40000000#32 * D + Ideal.ofBits .f32 0x3F800000#32) ((P + T) + Ideal.ofBits .f32 0x3F800000#32))

/-- Expanding (1 - p)(1 - t) under the sum. -/
theorem sum_complement (p t : Fin 65536 → ℝ) :
    ∑ l, (1 - p l) * (1 - t l) = 65536 - ∑ l, p l - ∑ l, t l + ∑ l, p l * t l := by
  have h : ∀ l, (1 - p l) * (1 - t l) = 1 - p l - t l + p l * t l := fun l => by ring
  simp only [h, Finset.sum_add_distrib, Finset.sum_sub_distrib, Finset.sum_const, Finset.card_univ, Fintype.card_fin,
    nsmul_eq_mul, mul_one]
  norm_num

/-- The mask cost, in the kernel's arrangement and in the reference's. -/
theorem mask_cost (p t : Fin 65536 → ℝ) :
    Ideal.div ((((∑ l, (p l : EReal)) + ∑ l, (t l : EReal)) - ((65536 : ℝ) : EReal))
        - ((2 : ℝ) : EReal) * ∑ l, (p l : EReal) * (t l : EReal)) ((65536 : ℝ) : EReal)
      = (-(∑ l, (p l : EReal) * (t l : EReal))) * ((1 / 65536 : ℝ) : EReal)
        + (-(∑ l, (((1 : ℝ) : EReal) - (p l : EReal)) * (((1 : ℝ) : EReal) - (t l : EReal)))) * ((1 / 65536 : ℝ) : EReal) := by
  have hP : (∑ l, (p l : EReal)) = ((∑ l, p l : ℝ) : EReal) := (coe_sum _ _).symm
  have hT : (∑ l, (t l : EReal)) = ((∑ l, t l : ℝ) : EReal) := (coe_sum _ _).symm
  have hD : (∑ l, (p l : EReal) * (t l : EReal)) = ((∑ l, p l * t l : ℝ) : EReal) := by
    rw [coe_sum]; exact Finset.sum_congr rfl fun l _ => (EReal.coe_mul _ _).symm
  have hE : (∑ l, (((1 : ℝ) : EReal) - (p l : EReal)) * (((1 : ℝ) : EReal) - (t l : EReal)))
      = ((∑ l, (1 - p l) * (1 - t l) : ℝ) : EReal) := by
    rw [coe_sum]; exact Finset.sum_congr rfl fun l _ => by rw [EReal.coe_mul, EReal.coe_sub, EReal.coe_sub]
  rw [hP, hT, hD, hE, Ideal.div_coe (by norm_num : (65536 : ℝ) ≠ 0), sum_complement]
  rw [← EReal.coe_add, ← EReal.coe_sub, ← EReal.coe_mul, ← EReal.coe_sub, ← EReal.coe_mul, ← EReal.coe_neg, ← EReal.coe_neg,
    ← EReal.coe_mul, ← EReal.coe_mul, ← EReal.coe_add, EReal.coe_eq_coe_iff]
  ring

/-- THE JOIN. With the class cost c any extended real and p, t real sequences: the kernel's result
    ((1 c + 0) + 0) + cost(P, T, D) is the reference's (1 c + 1 mask) + 1 dice, every literal as the programs spell it. -/
theorem total_eq (c : EReal) (p t : Fin 65536 → ℝ) :
    ((Ideal.ofBits .f32 0x3F800000#32 * c + Ideal.ofBits .f32 0x00000000#32) + Ideal.ofBits .f32 0x00000000#32)
        + costOf (∑ l, (p l : EReal)) (∑ l, (t l : EReal)) (∑ l, (p l : EReal) * (t l : EReal))
      = (Ideal.ofBits .f32 0x3F800000#32 * c
          + Ideal.ofBits .f32 0x3F800000#32
            * ((-(∑ l, (p l : EReal) * (t l : EReal))) * Ideal.ofBits .f32 0x37800000#32
               + (-(∑ l, (Ideal.ofBits .f32 0x3F800000#32 - (p l : EReal)) * (Ideal.ofBits .f32 0x3F800000#32 - (t l : EReal))))
                  * Ideal.ofBits .f32 0x37800000#32))
        + Ideal.ofBits .f32 0x3F800000#32
          * (Ideal.ofBits .f32 0x3F800000#32
              - Ideal.div (Ideal.ofBits .f32 0x40000000#32 * (∑ l, (p l : EReal) * (t l : EReal)) + Ideal.ofBits .f32 0x3F800000#32)
                  (((Ideal.ofBits .f32 0x00000000#32 + ∑ l, (p l : EReal)) + (Ideal.ofBits .f32 0x00000000#32 + ∑ l, (t l : EReal)))
                    + Ideal.ofBits .f32 0x3F800000#32)) := by
  unfold costOf
  rw [Ideal.ofBits_zero_f32, Ideal.ofBits_one_f32, ofBits_65536, ofBits_two, ofBits_inv_65536]
  simp only [one_mul, add_zero, zero_add]
  rw [mask_cost p t]
  simp only [EReal.coe_one, add_assoc]

end Cert.CostAlgebra

end
-- ==== Proof.TileValues.lean ====
/-
  The kernel body's arithmetic, read at an index over the extended reals.

  At one grid point the body sees a block x of the (reshaped) predicted masks, 100 rows by 8192 columns, and a
  block g of the target masks, 20 rows by 8192 columns. With p = sigmoid x, entry by entry, it adds
      to the dot-product accumulator at (n, q):   the sum over the tile's columns k of p(n, k) * g(q, k),
      to the row-sum accumulator at n:            the sum over k of p(n, k),
      to the target-sum accumulator at q:         the sum over k of 1 * g(q, k)   (a product with a row of ones),
  a change of float format being the identity here. At a batch's last tile it stores, at (n, q), the cost
      ((P + T) - 65536 - 2 D) / 65536  +  (1 - (2 D + 1) / ((P + T) + 1))
  of the three accumulators P = row sum at n, T = target sum at q, D = dot product at (n, q).
-/
import proofs.«121014_j8177617731832_1_alg».proof.Proof.Algebra
import proofs.«121014_j8177617731832_1_alg».proof.Proof.Gen.KernelIdeal.Skeleton
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

open Idealize.ShloMosaic Idealize.ShloMosaic.TcCoe Idealize.SL.Sem
open Idealize.ShloMosaic.Pipeline (Dat)
open Cert.KernelIdeal Cert.KernelIdeal.Gen Idealize.ShloMosaic.ValueIdx Cert.CostAlgebra
namespace Cert.KernelIdeal.TileValues

/-- The two products of the body: p · gᵀ over the tile's columns, and a row of ones · gᵀ. -/
abbrev dotPG := dot_S100x8192_S8192x20_S100x20_1_0_0_1_n_n
abbrev dotOnesG := dot_S1x8192_S8192x20_S1x20_1_0_0_1_n_n

/-- The sigmoid of the predicted-mask block, at row n and column k. -/
theorem sigmoid_apply (x : Vec Ideal S1x100x8192 .f32) (n : Fin 100) (k : Fin 8192) :
    k0_pay6 (F := Ideal) x (ix2 n k) = Ideal.logistic (x (ix3 (0 : Fin 1) n k)) := by
  unfold k0_pay6
  exact congrArg Ideal.logistic (shapeCast_1ab_ab_apply x _ n k)

/-- The target block, at row q and column k (its change of format is the identity). -/
theorem target_apply (g : Vec Ideal S1x20x8192 .f32) (q : Fin 20) (k : Fin 8192) :
    k0_pay7 (F := Ideal) g (ix2 q k) = g (ix3 (0 : Fin 1) q k) := by
  unfold k0_pay7
  exact shapeCast_1ab_ab_apply g _ q k

theorem dotPG_lhs0 (j : S100x20.Idx) (c : dotPG.contr.Idx) : (dotPG.lhsIdx j c 0).val = (j 0).val := by
  unfold DotDims.lhsIdx
  rw [dif_neg (show ¬(0 : Fin S100x8192.rank) ∈ dotPG.lhsBatch by decide), dif_pos (show (0 : Fin S100x8192.rank) ∈ dotPG.lhsNonContracting by decide)]
  rfl
theorem dotPG_lhs1 (j : S100x20.Idx) (c : dotPG.contr.Idx) : (dotPG.lhsIdx j c 1).val = (c ⟨0, by decide⟩).val :=
  dotPG.lhsIdx_val_of_single rfl j c
theorem dotPG_rhs0 (j : S100x20.Idx) (c : dotPG.contr.Idx) : (dotPG.rhsIdx j c 0).val = (c ⟨0, by decide⟩).val :=
  dotPG.rhsIdx_val_of_single rfl j c
theorem dotPG_rhs1 (j : S100x20.Idx) (c : dotPG.contr.Idx) : (dotPG.rhsIdx j c 1).val = (j 1).val := by
  unfold DotDims.rhsIdx
  rw [dif_neg (show ¬(1 : Fin S8192x20.rank) ∈ dotPG.rhsBatch by decide), dif_pos (show (1 : Fin S8192x20.rank) ∈ dotPG.rhsNonContracting by decide)]
  rfl

/-- The dot-product accumulator after a tile: its previous entry plus the tile's sum of p(n, k) * g(q, k). -/
theorem dot_apply (x : Vec Ideal S1x100x8192 .f32) (g : Vec Ideal S1x20x8192 .f32) (acc : Vec Ideal S100x20 .f32)
    (n : Fin 100) (q : Fin 20) :
    k0_pay8 (F := Ideal) x g acc (ix2 n q)
      = acc (ix2 n q) + ∑ k : Fin 8192, Ideal.logistic (x (ix3 (0 : Fin 1) n k)) * g (ix3 (0 : Fin 1) q k) := by
  unfold k0_pay8
  refine (congrFun (shapeCast_self _ _) _).trans ?_
  refine congrArg (acc (ix2 n q) + ·) ?_
  refine (Ideal.matmul_constant_zero_apply dotPG none _ _ (ix2 n q)).trans ?_
  rw [← Equiv.sum_comp (contrEquiv1 dotPG 8192 rfl rfl).symm]
  refine Finset.sum_congr rfl fun k _ => ?_
  have hk := contrEquiv1_symm_val dotPG 8192 rfl rfl k
  have el : dotPG.lhsIdx (ix2 n q) ((contrEquiv1 dotPG 8192 rfl rfl).symm k) = ix2 n k := funext fun a => Fin.ext (by
    match a with
    | ⟨0, _⟩ => exact dotPG_lhs0 _ _
    | ⟨1, _⟩ => exact (dotPG_lhs1 _ _).trans hk)
  have er : dotPG.rhsIdx (ix2 n q) ((contrEquiv1 dotPG 8192 rfl rfl).symm k) = ix2 k q := funext fun a => Fin.ext (by
    match a with
    | ⟨0, _⟩ => exact (dotPG_rhs0 _ _).trans hk
    | ⟨1, _⟩ => exact dotPG_rhs1 _ _)
  rw [el, er]
  exact congrArg₂ (· * ·) (sigmoid_apply x n k)
    ((transpose_ix2_apply (k0_pay7 (F := Ideal) g) _ k q).trans (target_apply g q k))

/-- The lane reduction's source index over row n at column k. -/
theorem lift_row (n : Fin 100) (k : Fin 8192) :
    (reduces_S100x8192_S100 : S100x8192.Reduces [1] S100).lift (ix1 n) k = ix2 n k :=
  funext fun a => Fin.ext (by
    match a with
    | ⟨0, _⟩ => rfl
    | ⟨1, _⟩ => rfl)

/-- The row-sum accumulator after a tile: its previous entry plus the tile's sum of p(n, k). -/
theorem rowsum_apply (x : Vec Ideal S1x100x8192 .f32) (acc : Vec Ideal S100x1 .f32) (n : Fin 100) :
    k0_pay9 (F := Ideal) x acc (ix2 n (0 : Fin 1))
      = acc (ix2 n (0 : Fin 1)) + ∑ k : Fin 8192, Ideal.logistic (x (ix3 (0 : Fin 1) n k)) := by
  unfold k0_pay9
  refine (congrFun (shapeCast_self _ _) _).trans ?_
  refine congrArg (acc (ix2 n (0 : Fin 1)) + ·) ?_
  refine (shapeCast_apply _ shapeCasts_S100_S100x1 (ix2 n (0 : Fin 1)) (ix1 n) (by
    rw [Shape.rowMajor_val_one, Shape.rowMajor_val_two]
    show n.val = n.val * 1 + 0
    omega)).trans ?_
  refine (Ideal.multiReduction_add_single (k0_pay6 (F := Ideal) x) _ reduces_S100x8192_S100 _ _ (ix1 n)).trans ?_
  refine Finset.sum_congr rfl fun k _ => ?_
  rw [lift_row n k]
  exact sigmoid_apply x n k

theorem dotOnesG_rhs0 (j : S1x20.Idx) (c : dotOnesG.contr.Idx) : (dotOnesG.rhsIdx j c 0).val = (c ⟨0, by decide⟩).val :=
  dotOnesG.rhsIdx_val_of_single rfl j c
theorem dotOnesG_rhs1 (j : S1x20.Idx) (c : dotOnesG.contr.Idx) : (dotOnesG.rhsIdx j c 1).val = (j 1).val := by
  unfold DotDims.rhsIdx
  rw [dif_neg (show ¬(1 : Fin S8192x20.rank) ∈ dotOnesG.rhsBatch by decide), dif_pos (show (1 : Fin S8192x20.rank) ∈ dotOnesG.rhsNonContracting by decide)]
  rfl

/-- The target-sum accumulator after a tile: its previous entry plus the tile's sum of g(q, k) — each term the
    product of g(q, k) with the entry 1 of the row of ones. -/
theorem targetsum_apply (g : Vec Ideal S1x20x8192 .f32) (acc : Vec Ideal S1x20 .f32) (q : Fin 20) :
    k0_pay1 (F := Ideal) (k0_pay10 (F := Ideal) g acc) (ix2 (0 : Fin 1) q)
      = acc (ix2 (0 : Fin 1) q) + ∑ k : Fin 8192, g (ix3 (0 : Fin 1) q k) := by
  unfold k0_pay1 k0_pay10
  refine (congrFun (shapeCast_self _ _) _).trans ?_
  refine congrArg (acc (ix2 (0 : Fin 1) q) + ·) ?_
  refine (Ideal.matmul_constant_zero_apply dotOnesG none _ _ (ix2 (0 : Fin 1) q)).trans ?_
  rw [← Equiv.sum_comp (contrEquiv1 dotOnesG 8192 rfl rfl).symm]
  refine Finset.sum_congr rfl fun k _ => ?_
  have hk := contrEquiv1_symm_val dotOnesG 8192 rfl rfl k
  have er : dotOnesG.rhsIdx (ix2 (0 : Fin 1) q) ((contrEquiv1 dotOnesG 8192 rfl rfl).symm k) = ix2 k q := funext fun a => Fin.ext (by
    match a with
    | ⟨0, _⟩ => exact (dotOnesG_rhs0 _ _).trans hk
    | ⟨1, _⟩ => exact dotOnesG_rhs1 _ _)
  rw [er]
  show Ideal.ofBits .bf16 0x3F80#16 * _ = _
  rw [Ideal.ofBits_one_bf16, one_mul]
  exact (transpose_ix2_apply (k0_pay7 (F := Ideal) g) _ k q).trans (target_apply g q k)

/-- A column [100, 1] broadcast to [100, 20] reads, at (n, q), the column's entry at n. -/
theorem broadcast_column_apply (v : Vec Ideal S100x1 .f32) (n : Fin 100) (q : Fin 20) :
    broadcastTo S100x20 v broadcasts_S100x1_S100x20 (ix2 n q) = v (ix2 n (0 : Fin 1)) := by
  refine broadcastTo_apply v broadcasts_S100x1_S100x20 (ix2 n q) (ix2 n (0 : Fin 1)) fun ax => ?_
  match ax with
  | ⟨0, _⟩ =>
    show n.val = if (100 : Nat) = 1 then 0 else n.val
    rw [if_neg (by decide)]
  | ⟨1, _⟩ =>
    show 0 = if (1 : Nat) = 1 then 0 else q.val
    rw [if_pos rfl]

/-- The cost block the last tile stores, at (n, q), of the three accumulators' entries. -/
theorem cost_apply (P : Vec Ideal S100x1 .f32) (T : Vec Ideal S1x20 .f32) (D : Vec Ideal S100x20 .f32)
    (u : Fin 1) (n : Fin 100) (q : Fin 20) :
    k0_pay2 (F := Ideal) P T D (ix3 u n q) = costOf (P (ix2 n (0 : Fin 1))) (T (ix2 (0 : Fin 1) q)) (D (ix2 n q)) := by
  unfold k0_pay2
  refine (shapeCast_ab_1ab_apply _ _ u n q).trans ?_
  show costOf (broadcastTo S100x20 P broadcasts_S100x1_S100x20 (ix2 n q)) (broadcastTo S100x20 T broadcasts_S1x20_S100x20 (ix2 n q)) (D (ix2 n q)) = _
  rw [broadcast_column_apply P n q, broadcastTo_1b_ab_apply T _ n q]

end Cert.KernelIdeal.TileValues
end
-- ==== Proof.Accumulate.lean ====
/-
  The three accumulators, point by point.

  The grid runs over the batches b = 0 … 3 and, inside a batch, over the tiles s = 0 … 7 of the 65536 mask positions;
  point t is batch t / 8, tile t % 8. The block of the predicted masks at point t holds, at row a and column k, the
  array's entry (t / 8, a, 8192 (t % 8) + k); likewise the target block. So after point t the dot-product accumulator
  holds, at (a, q), the sum over the tiles s ≤ t % 8 of the batch of that tile's sum of sigmoid(pred) * target, and
  the two row-sum accumulators the corresponding sums: by induction on the point — a batch's first tile adds to the
  zero block, every later tile adds to what the tile before left. At a batch's last tile the stored cost is the cost
  of the three complete sums.
-/
import proofs.«121014_j8177617731832_1_alg».proof.Proof.Pieces
import proofs.«121014_j8177617731832_1_alg».proof.Proof.TileValues

set_option maxRecDepth 16384

noncomputable section

open Idealize.ShloMosaic Idealize.ShloMosaic.TcCoe Idealize.SL.Sem
open Idealize.ShloMosaic.Pipeline (Dat)
open Cert.KernelIdeal Cert.KernelIdeal.Gen Idealize.ShloMosaic.ValueIdx Cert.CostAlgebra
open Cert.KernelIdeal.Pieces Cert.KernelIdeal.TileValues
namespace Cert.KernelIdeal.Accumulate

/-! ## Positions in the two arrays -/

/-- Row a of batch b of the reshaped predicted masks, at position k of tile s. -/
abbrev predIdx (b s : ℕ) (a : Fin 100) (k : Fin 8192) : S4x100x65536.Idx :=
  ix3 (⟨b % 4, Nat.mod_lt _ (by norm_num)⟩ : Fin 4) a (⟨(8192 * s + k.val) % 65536, Nat.mod_lt _ (by norm_num)⟩ : Fin 65536)

/-- Row q of batch b of the reshaped target masks, at position k of tile s. -/
abbrev tgtIdx (b s : ℕ) (q : Fin 20) (k : Fin 8192) : S4x20x65536.Idx :=
  ix3 (⟨b % 4, Nat.mod_lt _ (by norm_num)⟩ : Fin 4) q (⟨(8192 * s + k.val) % 65536, Nat.mod_lt _ (by norm_num)⟩ : Fin 65536)

/-! ## One tile's contributions, as functions of the whole arrays -/

def dotM (A : S4x100x65536.Idx → EReal) (B : S4x20x65536.Idx → EReal) (b s : ℕ) (a : Fin 100) (q : Fin 20) : EReal :=
  ∑ k : Fin 8192, Ideal.logistic (A (predIdx b s a k)) * B (tgtIdx b s q k)

def rowM (A : S4x100x65536.Idx → EReal) (b s : ℕ) (a : Fin 100) : EReal :=
  ∑ k : Fin 8192, Ideal.logistic (A (predIdx b s a k))

def tgtM (B : S4x20x65536.Idx → EReal) (b s : ℕ) (q : Fin 20) : EReal :=
  ∑ k : Fin 8192, B (tgtIdx b s q k)

variable (m : (ℓ : Loc nD τ sig) → Buf (Elt Ideal) ℓ)

/-- The two arrays as the region finds them: the reshaped predicted masks and the reshaped target masks. -/
abbrev predArr (c : Dev nD) : S4x100x65536.Idx → EReal := V m c main_v0
abbrev tgtArr (c : Dev nD) : S4x20x65536.Idx → EReal := V m c main_v1

/-! ## A block's entry is the array's -/

theorem pred_index : ∀ t : Fin cfg0.N, win0_0.index t 0 = t.val / 8 ∧ win0_0.index t 1 = 0 ∧ win0_0.index t 2 = t.val % 8 :=
  (by decide +kernel : ∀ t : Fin grid0.N, win0_0.index t 0 = t.val / 8 ∧ win0_0.index t 1 = 0 ∧ win0_0.index t 2 = t.val % 8)

theorem tgt_index : ∀ t : Fin cfg0.N, win0_1.index t 0 = t.val / 8 ∧ win0_1.index t 1 = 0 ∧ win0_1.index t 2 = t.val % 8 :=
  (by decide +kernel : ∀ t : Fin grid0.N, win0_1.index t 0 = t.val / 8 ∧ win0_1.index t 1 = 0 ∧ win0_1.index t 2 = t.val % 8)

theorem pred_block (c : Dev nD) (t : Fin cfg0.N) (a : Fin 100) (k : Fin 8192) :
    (iblk m c 0 t : Vec Ideal S1x100x8192 .f32) (ix3 (0 : Fin 1) a k) = predArr m c (predIdx (t.val / 8) (t.val % 8) a k) := by
  obtain ⟨h0, h1, h2⟩ := pred_index t
  have hN : t.val < 32 := lt_of_lt_of_eq t.isLt (show cfg0.N = 32 from N_0)
  unfold iblk
  rw [View.read_apply]
  refine congrArg (V m c main_v0) (funext fun ax => Fin.ext ?_)
  match ax with
  | ⟨0, _⟩ =>
    show win0_0.index t 0 * 1 + 1 * (0 : Fin 1).val = (t.val / 8) % 4
    rw [h0]; omega
  | ⟨1, _⟩ =>
    show win0_0.index t 1 * 100 + 1 * a.val = a.val
    rw [h1]; omega
  | ⟨2, _⟩ =>
    show win0_0.index t 2 * 8192 + 1 * k.val = (8192 * (t.val % 8) + k.val) % 65536
    rw [h2]; omega

theorem tgt_block (c : Dev nD) (t : Fin cfg0.N) (q : Fin 20) (k : Fin 8192) :
    (iblk m c 1 t : Vec Ideal S1x20x8192 .f32) (ix3 (0 : Fin 1) q k) = tgtArr m c (tgtIdx (t.val / 8) (t.val % 8) q k) := by
  obtain ⟨h0, h1, h2⟩ := tgt_index t
  have hN : t.val < 32 := lt_of_lt_of_eq t.isLt (show cfg0.N = 32 from N_0)
  unfold iblk
  rw [View.read_apply]
  refine congrArg (V m c main_v1) (funext fun ax => Fin.ext ?_)
  match ax with
  | ⟨0, _⟩ =>
    show win0_1.index t 0 * 1 + 1 * (0 : Fin 1).val = (t.val / 8) % 4
    rw [h0]; omega
  | ⟨1, _⟩ =>
    show win0_1.index t 1 * 20 + 1 * q.val = q.val
    rw [h1]; omega
  | ⟨2, _⟩ =>
    show win0_1.index t 2 * 8192 + 1 * k.val = (8192 * (t.val % 8) + k.val) % 65536
    rw [h2]; omega

/-! ## The zero blocks a batch's first tile stores -/

theorem zero_dot (a : Fin 100) (q : Fin 20) : k0_pay3 (F := Ideal) (ix2 a q) = 0 := by
  unfold k0_pay3
  exact (congrFun (shapeCast_self _ _) _).trans Ideal.ofBits_zero_f32
theorem zero_row (a : Fin 100) : k0_pay4 (F := Ideal) (ix2 a (0 : Fin 1)) = 0 := by
  unfold k0_pay4
  exact (congrFun (shapeCast_self _ _) _).trans Ideal.ofBits_zero_f32
theorem zero_tgt (q : Fin 20) : k0_pay5 (F := Ideal) (ix2 (0 : Fin 1) q) = 0 := by
  unfold k0_pay5
  exact (congrFun (shapeCast_self _ _) _).trans Ideal.ofBits_zero_f32

/-! ## One point's step, whatever its case -/

/-- What the point before t left. -/
abbrev prev (c : Dev nD) (t : Fin cfg0.N) := outsAt0 m c (t.val - 1) (Nat.lt_of_le_of_lt (Nat.sub_le _ _) t.isLt)

/-- A batch's first tile: the accumulators are the tile's updates of the zero blocks. -/
theorem first_step (c : Dev nD) (t : Fin cfg0.N) (h0 : t.val % 8 = 0) :
    (outsAt0 m c t.val t.isLt).2.1 = k0_pay8 (iblk m c 0 t) (iblk m c 1 t) (k0_pay3 (F := Ideal))
    ∧ (outsAt0 m c t.val t.isLt).2.2.1 = k0_pay9 (iblk m c 0 t) (k0_pay4 (F := Ideal))
    ∧ (outsAt0 m c t.val t.isLt).2.2.2 = k0_pay1 (k0_pay10 (iblk m c 1 t) (k0_pay5 (F := Ideal))) := by
  have h1 : ¬t.val % 8 = 7 := by omega
  have e := outsAt0_A m c t h0 h1
  refine ⟨(congrArg (fun z => z.2.1) e).trans ?_, (congrArg (fun z => z.2.2.1) e).trans ?_, (congrArg (fun z => z.2.2.2) e).trans ?_⟩
  · exact sA0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)
  · exact sA1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)
  · exact sA2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- A later tile: the accumulators are the tile's updates of what the tile before left. -/
theorem later_step (c : Dev nD) (t : Fin cfg0.N) (h0 : ¬t.val % 8 = 0) :
    (outsAt0 m c t.val t.isLt).2.1 = k0_pay8 (iblk m c 0 t) (iblk m c 1 t) (prev m c t).2.1
    ∧ (outsAt0 m c t.val t.isLt).2.2.1 = k0_pay9 (iblk m c 0 t) (prev m c t).2.2.1
    ∧ (outsAt0 m c t.val t.isLt).2.2.2 = k0_pay1 (k0_pay10 (iblk m c 1 t) (prev m c t).2.2.2) := by
  by_cases h1 : t.val % 8 = 7
  · have e := outsAt0_C m c t h0 h1
    refine ⟨(congrArg (fun z => z.2.1) e).trans ?_, (congrArg (fun z => z.2.2.1) e).trans ?_, (congrArg (fun z => z.2.2.2) e).trans ?_⟩
    · exact sC0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (prev m c t).2.1 (prev m c t).2.2.1 (prev m c t).2.2.2
    · exact sC1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (prev m c t).2.1 (prev m c t).2.2.1 (prev m c t).2.2.2
    · exact sC2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (prev m c t).2.1 (prev m c t).2.2.1 (prev m c t).2.2.2
  · have e := outsAt0_B m c t h0 h1
    refine ⟨(congrArg (fun z => z.2.1) e).trans ?_, (congrArg (fun z => z.2.2.1) e).trans ?_, (congrArg (fun z => z.2.2.2) e).trans ?_⟩
    · exact sB0 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (prev m c t).2.1 (prev m c t).2.2.1 (prev m c t).2.2.2
    · exact sB1 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (prev m c t).2.1 (prev m c t).2.2.1 (prev m c t).2.2.2
    · exact sB2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (prev m c t).2.1 (prev m c t).2.2.1 (prev m c t).2.2.2

/-- A batch's last tile stores the cost of the accumulators as that tile leaves them. -/
theorem last_out (c : Dev nD) (t : Fin cfg0.N) (h1 : t.val % 8 = 7) :
    (outsAt0 m c t.val t.isLt).1
      = k0_pay2 (outsAt0 m c t.val t.isLt).2.2.1 (outsAt0 m c t.val t.isLt).2.2.2 (outsAt0 m c t.val t.isLt).2.1 := by
  have h0 : ¬t.val % 8 = 0 := by omega
  obtain ⟨e0, e1, e2⟩ := later_step m c t h0
  rw [e0, e1, e2]
  exact (congrArg (fun z => z.1) (outsAt0_C m c t h0 h1)).trans
    (oC2 (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (prev m c t).2.1 (prev m c t).2.2.1 (prev m c t).2.2.2)

/-! ## One point's updates, over the whole arrays -/

theorem dot_point (c : Dev nD) (t : Fin cfg0.N) (old : Vec Ideal S100x20 .f32) (a : Fin 100) (q : Fin 20) :
    k0_pay8 (F := Ideal) (iblk m c 0 t) (iblk m c 1 t) old (ix2 a q)
      = old (ix2 a q) + dotM (predArr m c) (tgtArr m c) (t.val / 8) (t.val % 8) a q :=
  (dot_apply (iblk m c 0 t) (iblk m c 1 t) old a q).trans
    (congrArg (old (ix2 a q) + ·) (Finset.sum_congr rfl fun k _ => by rw [pred_block m c t a k, tgt_block m c t q k]))

theorem row_point (c : Dev nD) (t : Fin cfg0.N) (old : Vec Ideal S100x1 .f32) (a : Fin 100) :
    k0_pay9 (F := Ideal) (iblk m c 0 t) old (ix2 a (0 : Fin 1))
      = old (ix2 a (0 : Fin 1)) + rowM (predArr m c) (t.val / 8) (t.val % 8) a :=
  (rowsum_apply (iblk m c 0 t) old a).trans
    (congrArg (old (ix2 a (0 : Fin 1)) + ·) (Finset.sum_congr rfl fun k _ => by rw [pred_block m c t a k]))

theorem tgt_point (c : Dev nD) (t : Fin cfg0.N) (old : Vec Ideal S1x20 .f32) (q : Fin 20) :
    k0_pay1 (F := Ideal) (k0_pay10 (F := Ideal) (iblk m c 1 t) old) (ix2 (0 : Fin 1) q)
      = old (ix2 (0 : Fin 1) q) + tgtM (tgtArr m c) (t.val / 8) (t.val % 8) q :=
  (targetsum_apply (iblk m c 1 t) old q).trans
    (congrArg (old (ix2 (0 : Fin 1) q) + ·) (Finset.sum_congr rfl fun k _ => tgt_block m c t q k))

/-! ## The invariant -/

/-- After point n the accumulators hold the sums of the addends of the tiles 0 … n % 8 of batch n / 8. -/
def Sums (c : Dev nD) (n : ℕ) (h : n < cfg0.N) : Prop :=
  (∀ (a : Fin 100) (q : Fin 20), (outsAt0 m c n h).2.1 (ix2 a q)
      = ∑ s ∈ Finset.range (n % 8 + 1), dotM (predArr m c) (tgtArr m c) (n / 8) s a q)
  ∧ (∀ a : Fin 100, (outsAt0 m c n h).2.2.1 (ix2 a (0 : Fin 1)) = ∑ s ∈ Finset.range (n % 8 + 1), rowM (predArr m c) (n / 8) s a)
  ∧ (∀ q : Fin 20, (outsAt0 m c n h).2.2.2 (ix2 (0 : Fin 1) q) = ∑ s ∈ Finset.range (n % 8 + 1), tgtM (tgtArr m c) (n / 8) s q)

theorem sums_first (c : Dev nD) (t : Fin cfg0.N) (h0 : t.val % 8 = 0) : Sums m c t.val t.isLt := by
  obtain ⟨e0, e1, e2⟩ := first_step m c t h0
  refine ⟨fun a q => ?_, fun a => ?_, fun q => ?_⟩
  · rw [e0]
    refine (dot_point m c t _ a q).trans ?_
    rw [zero_dot, zero_add, h0]
    exact (Finset.sum_range_one (fun s => dotM (predArr m c) (tgtArr m c) (t.val / 8) s a q)).symm
  · rw [e1]
    refine (row_point m c t _ a).trans ?_
    rw [zero_row, zero_add, h0]
    exact (Finset.sum_range_one (fun s => rowM (predArr m c) (t.val / 8) s a)).symm
  · rw [e2]
    refine (tgt_point m c t _ q).trans ?_
    rw [zero_tgt, zero_add, h0]
    exact (Finset.sum_range_one (fun s => tgtM (tgtArr m c) (t.val / 8) s q)).symm

theorem sums_later (c : Dev nD) (t : Fin cfg0.N) (h0 : ¬t.val % 8 = 0)
    (ih : Sums m c (t.val - 1) (Nat.lt_of_le_of_lt (Nat.sub_le _ _) t.isLt)) : Sums m c t.val t.isLt := by
  obtain ⟨e0, e1, e2⟩ := later_step m c t h0
  obtain ⟨i0, i1, i2⟩ := ih
  have d1 : (t.val - 1) / 8 = t.val / 8 := by omega
  have d2 : (t.val - 1) % 8 + 1 = t.val % 8 := by omega
  refine ⟨fun a q => ?_, fun a => ?_, fun q => ?_⟩
  · rw [e0]
    refine (dot_point m c t _ a q).trans ?_
    rw [i0 a q, d1, d2, Finset.sum_range_succ]
  · rw [e1]
    refine (row_point m c t _ a).trans ?_
    rw [i1 a, d1, d2, Finset.sum_range_succ]
  · rw [e2]
    refine (tgt_point m c t _ q).trans ?_
    rw [i2 q, d1, d2, Finset.sum_range_succ]

theorem sums (c : Dev nD) : ∀ (n : ℕ) (h : n < cfg0.N), Sums m c n h
  | 0, h => sums_first m c ⟨0, h⟩ rfl
  | n + 1, h => by
    by_cases h0 : (n + 1) % 8 = 0
    · exact sums_first m c ⟨n + 1, h⟩ h0
    · exact sums_later m c ⟨n + 1, h⟩ h0 (sums c n (Nat.lt_of_succ_lt h))

/-- The cost block a batch's last tile stores: the cost of the batch's three complete sums. -/
theorem last_cost (c : Dev nD) (t : Fin cfg0.N) (h1 : t.val % 8 = 7) (u : Fin 1) (a : Fin 100) (q : Fin 20) :
    (outsAt0 m c t.val t.isLt).1 (ix3 u a q)
      = costOf (∑ s ∈ Finset.range 8, rowM (predArr m c) (t.val / 8) s a) (∑ s ∈ Finset.range 8, tgtM (tgtArr m c) (t.val / 8) s q)
          (∑ s ∈ Finset.range 8, dotM (predArr m c) (tgtArr m c) (t.val / 8) s a q) := by
  obtain ⟨i0, i1, i2⟩ := sums m c t.val t.isLt
  rw [last_out m c t h1, cost_apply, i0 a q, i1 a, i2 q, h1]

end Cert.KernelIdeal.Accumulate
end
-- ==== Proof.KernelValue.lean ====
/-
  The kernel's result.

  Output block (b, ·, ·) is written back once, at the batch's last tile, point 8 b + 7, and there it holds the cost of
  the batch's three complete sums; these four blocks tile the output array, so after the region the array holds, at
  (b, n, q), the cost of row n's and row q's sums in batch b. The host lines after the region then add the class
  cost: the result is  ((1 c + 0) + 0) + cost,  with c the class cost — the same chain of host operations as the
  reference's, carried as one function and never opened. The two arrays the region reads are the reshapes of the
  predicted and the target masks.
-/
import proofs.«121014_j8177617731832_1_alg».proof.Proof.Accumulate
import proofs.«121014_j8177617731832_1_alg».proof.Proof.Gen.ReferenceIdeal.Read
import Idealize.ShloMosaic.Lib.StableHlo.Run

set_option maxRecDepth 16384

noncomputable section

open Idealize.ShloMosaic Idealize.ShloMosaic.TcCoe Idealize.SL.Sem
open Idealize.ShloMosaic.Pipeline (Dat)
open Cert.KernelIdeal Cert.KernelIdeal.Gen Idealize.ShloMosaic.ValueIdx Cert.CostAlgebra
open Cert.KernelIdeal.Accumulate Idealize.ShloMosaic.StableHlo
namespace Cert.KernelIdeal.KernelValue

variable (m : (ℓ : Loc nD τ sig) → Buf (Elt Ideal) ℓ) (ρ : Dev nD → PrngReg)

/-! ## The output array after the region -/

/-- The cost array: at (b, n, q) the cost of the complete sums of row n and row q of batch b. -/
def costArr (A : S4x100x65536.Idx → EReal) (B : S4x20x65536.Idx → EReal) : S4x100x20.Idx → EReal := fun i =>
  costOf (∑ s ∈ Finset.range 8, rowM A (i 0).val s ⟨(i 1).val, (i 1).isLt⟩)
    (∑ s ∈ Finset.range 8, tgtM B (i 0).val s ⟨(i 2).val, (i 2).isLt⟩)
    (∑ s ∈ Finset.range 8, dotM A B (i 0).val s ⟨(i 1).val, (i 1).isLt⟩ ⟨(i 2).val, (i 2).isLt⟩)

theorem out_index : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- What a batch's last tile writes back is the batch's block of the cost array. -/
theorem flushed_eq (c : Dev nD) (t : Fin cfg0.N) (hf : (cfg0.win 2).flush t = true) :
    (dats m 0 c).flushed 2 t = ((cfg0.win 2).blk t).view.read (Elt Ideal) (costArr (predArr m c) (tgtArr m c)) := by
  have h7 : t.val % 8 = 7 := (flush0_2 t).mp hf
  have hN : t.val < 32 := lt_of_lt_of_eq t.isLt (show cfg0.N = 32 from N_0)
  obtain ⟨e0, e1, e2⟩ := out_index t
  show (cfg0.win 2).cut (grid0.coords t) ((dats m 0 c).after 2 t) = _
  rw [after0_2]
  funext y
  obtain ⟨u, a, q, rfl⟩ : ∃ (u : Fin 1) (a : Fin 100) (q : Fin 20), y = ix3 u a q := ⟨y 0, y 1, y 2, eq_ix3 y⟩
  rw [View.read_apply]
  have hi : ((cfg0.win 2).blk t).view.emb (ix3 u a q) = ix3 (⟨t.val / 8, by omega⟩ : Fin 4) a q := funext fun ax => Fin.ext (by
    match ax with
    | ⟨0, _⟩ =>
      show win0_2.index t 0 * 1 + 1 * u.val = t.val / 8
      rw [e0]; omega
    | ⟨1, _⟩ =>
      show win0_2.index t 1 * 100 + 1 * a.val = a.val
      rw [e1]; omega
    | ⟨2, _⟩ =>
      show win0_2.index t 2 * 20 + 1 * q.val = q.val
      rw [e2]; omega)
  rw [hi]
  exact last_cost m c t h7 u a q

/-- An index of the output array is in point t's block iff each coordinate is in the block's range on its axis. -/
theorem mem_blk (t : Fin cfg0.N) (i : S4x100x20.Idx) :
    i ∈ ((cfg0.win 2).blk t).view.set ↔ ∀ a : Fin 3, win0_2.index t a * S1x100x20.size a ≤ (i a).val
      ∧ (i a).val < win0_2.index t a * S1x100x20.size a + S1x100x20.size a := by
  show i ∈ ((View.whole main_v2).slice (win0_2.rect t)).set ↔ _
  rw [View.set_slice_whole, Rect.mem_set_unit]
  exact Iff.rfl

/-- Every index (b, n, q) is in the block written back at point 8 b + 7. -/
theorem cover (i : S4x100x20.Idx) : ∃ t : Fin cfg0.N, (cfg0.win 2).flush t = true ∧ i ∈ ((cfg0.win 2).blk t).view.set := by
  have h0 : (i 0).val < 4 := (i 0).isLt
  have h1 : (i 1).val < 100 := (i 1).isLt
  have h2 : (i 2).val < 20 := (i 2).isLt
  have hN : cfg0.N = 32 := N_0
  obtain ⟨t, tv⟩ : ∃ t : Fin cfg0.N, t.val = 8 * (i 0).val + 7 := ⟨⟨8 * (i 0).val + 7, by omega⟩, rfl⟩
  obtain ⟨e0, e1, e2⟩ := out_index t
  refine ⟨t, (flush0_2 t).mpr (by omega), ?_⟩
  rw [mem_blk]
  intro a
  match a with
  | ⟨0, _⟩ =>
    show win0_2.index t 0 * 1 ≤ (i 0).val ∧ (i 0).val < win0_2.index t 0 * 1 + 1
    rw [e0]; omega
  | ⟨1, _⟩ =>
    show win0_2.index t 1 * 100 ≤ (i 1).val ∧ (i 1).val < win0_2.index t 1 * 100 + 100
    rw [e1]; omega
  | ⟨2, _⟩ =>
    show win0_2.index t 2 * 20 ≤ (i 2).val ∧ (i 2).val < win0_2.index t 2 * 20 + 20
    rw [e2]; omega

/-- The output array after the region is the cost array. -/
theorem final (c : Dev nD) : (dats m 0 c).arrAt 2 cfg0.N = costArr (predArr m c) (tgtArr m c) :=
  (dats m 0 c).arrAt_eq_of_cover 2 (costArr (predArr m c) (tgtArr m c)) (fun t hf => flushed_eq m c t hf) cover

/-! ## The two arrays the region reads are the reshaped masks -/

theorem predArr_eq (c : Dev nD) :
    predArr m c = Cert.ReferenceIdeal.Read.val_main_v4 (F := Ideal) (m ((c.tc : Thread nD τ).loc main_arg1)) := by
  show StableHlo.after hostOps0 (fun b => m (c, b)) (Proc.devRef .tc main_v0) = _
  after_results
  rfl

theorem tgtArr_eq (c : Dev nD) :
    tgtArr m c = Cert.ReferenceIdeal.Read.val_main_v11 (F := Ideal) (m ((c.tc : Thread nD τ).loc main_arg3)) := by
  show StableHlo.after hostOps0 (fun b => m (c, b)) (Proc.devRef .tc main_v1) = _
  after_results
  rfl

/-! ## The host lines after the region -/

/-- The result as a function of the class-cost operands and the region's output array. -/
def resultOf (x0 : FVec Ideal S4x100x81 .f32) (x2 : IVec S4x20 32) (md : FVec Ideal S4x100x20 .f32) : FVec Ideal S4x100x20 .f32 :=
  addf (addf (addf (mulf (broadcastInDim S4x100x20 ![] bcast_S_S4x100x20 (constant (F := Ideal) S_ .f32 0x3F800000#32))
        (Cert.ReferenceIdeal.Read.val_main_v3 (F := Ideal) x0 x2))
      (broadcastInDim S4x100x20 ![] bcast_S_S4x100x20 (constant (F := Ideal) S_ .f32 0x00000000#32)))
    (broadcastInDim S4x100x20 ![] bcast_S_S4x100x20 (constant (F := Ideal) S_ .f32 0x00000000#32))) md

/-- The lines after the region, from any contents W of the buffers: the class cost of the first and third arguments,
    scaled by one, plus two zeros, plus the region's output array. -/
theorem tail_value (W : Valuation τ sig (Elt Ideal)) :
    StableHlo.after (List.flatten [hostOps1, hostOps1_1, hostOps1_2]) W (Proc.devRef .tc main_v13)
      = resultOf (W (Proc.devRef .tc main_arg0)) (W (Proc.devRef .tc main_arg2)) (W (Proc.devRef .tc main_v2)) := by
  simp only [hostOps1, hostOps1_1, hostOps1_2, List.flatten_cons, List.flatten_nil, List.append_nil, List.cons_append, List.nil_append]
  after_results_simp
  rfl

/-- The kernel's result buffer after the whole program. -/
theorem result_eq (c : Dev nD) :
    Pipeline.afterTail₀ cfgs (dats m) 0 (V0 m) [hostOps1, hostOps1_1, hostOps1_2] c main_v13
      = resultOf (m ((c.tc : Thread nD τ).loc main_arg0)) (m ((c.tc : Thread nD τ).loc main_arg2)) (costArr (predArr m c) (tgtArr m c)) := by
  unfold Pipeline.afterTail₀
  rw [tail_value]
  have w0 : Pipeline.withArrays spec0 c (V0 m c) (fun w => (dats m 0 c).arrAt w cfg0.N) (Proc.devRef .tc main_arg0)
      = m ((c.tc : Thread nD τ).loc main_arg0) :=
    (Pipeline.withArrays_of_ne _ c (V0 m c) _ main_arg0 (by exact (by decide : ∀ w, Pipeline.arrRef spec0 w ≠ main_arg0))).trans (V_main_arg0 m c)
  have w2 : Pipeline.withArrays spec0 c (V0 m c) (fun w => (dats m 0 c).arrAt w cfg0.N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  have wo : Pipeline.withArrays spec0 c (V0 m c) (fun w => (dats m 0 c).arrAt w cfg0.N) (Proc.devRef .tc main_v2)
      = costArr (predArr m c) (tgtArr m c) :=
    (Pipeline.withArrays_arr spec0 launch0.win.arr_inj c (V0 m c) (fun w => (dats m 0 c).arrAt w cfg0.N) 2).trans (final m c)
  rw [w0, w2, wo]

/-! ## The run, read -/

theorem run : θ_run defs (onTc (τ := τ) (main (F := Ideal))) ⟨m, fun _ => 0, ρ⟩ fun r => ∀ c : Dev nD,
      r.2.mem ((c.tc : Thread nD τ).loc main_v13)
        = resultOf (m ((c.tc : Thread nD τ).loc main_arg0)) (m ((c.tc : Thread nD τ).loc main_arg2)) (costArr (predArr m c) (tgtArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue
end
-- ==== Proof.RefValue.lean ====
/-
  The reference, read at an index over the extended reals.

  With p = 1 / (1 + exp (-x)) the sigmoid of the reshaped predicted masks — one function with the kernel's sigmoid — and
  t the reshaped target masks, the reference's result at (b, n, q) is
      (1 c + 1 ((-D) L⁻¹ + (-E) L⁻¹)) + 1 (1 - (2 D + 1) / (((0 + P) + (0 + T)) + 1)),
  where c is the class cost at (b, n, q), D = Σ p t, E = Σ (1 - p)(1 - t), P = Σ p and T = Σ t are sums over the 65536
  mask positions of row n of p and row q of t in batch b, and L⁻¹ is the literal 2⁻¹⁶.
-/
import proofs.«121014_j8177617731832_1_alg».proof.Proof.Gen.ReferenceIdeal.Read
import Idealize.ShloMosaic.Lib.IdealHost

set_option maxRecDepth 16384

noncomputable section

open Idealize.ShloMosaic Idealize.ShloMosaic.TcCoe Idealize.SL.Sem
open Idealize.ShloMosaic.Pipeline (Dat)
open Cert.ReferenceIdeal Cert.ReferenceIdeal.Gen Cert.ReferenceIdeal.Read
namespace Cert.ReferenceIdeal.RefValue

/-- The host's sigmoid, spelled negate / exponential / add / divide, is the one sigmoid of the extended reals. -/
theorem sigmoid_apply (x1 : (⟨S4x100x256x256, .f32⟩ : BufTy).Contents (Elt Ideal)) (j : S4x100x65536.Idx) :
    val_main_v10 (F := Ideal) x1 j = Ideal.logistic (val_main_v4 (F := Ideal) x1 j) := by
  rw [val_main_v10_apply, val_main_v9_apply, val_main_cst_0_apply, val_main_v8_apply, val_main_v7_apply, val_main_cst_apply,
    val_main_v6_apply, val_main_v5_apply]
  simp only [Ideal.hostDivf_def, Ideal.addf_def, Ideal.hostUnary_exp_def, Ideal.hostNegf_def, Ideal.negf_def, Ideal.ofBits_def,
    Ideal.ofBits_one_f32]
  rfl

/-- The row sum of p at (b, n, ·) broadcast to (b, n, q) sums row n of batch b. -/
theorem rowidx_eq (i : S4x100x20.Idx) (k : Fin 65536) : idx_main_v28 (idx_main_v29 (idx_main_v32 i)) k = lidx_main_v12 i k :=
  funext fun a => Fin.ext (by
    match a with
    | ⟨0, _⟩ => rfl
    | ⟨1, _⟩ => rfl
    | ⟨2, _⟩ => rfl)

/-- The row sum of t at (b, ·, q) broadcast to (b, n, q) sums row q of batch b. -/
theorem tgtidx_eq (i : S4x100x20.Idx) (k : Fin 65536) : idx_main_v30 (idx_main_v31 (idx_main_v33 i)) k = ridx_main_v12 i k :=
  funext fun a => Fin.ext (by
    match a with
    | ⟨0, _⟩ => rfl
    | ⟨1, _⟩ => rfl
    | ⟨2, _⟩ => rfl)

/-- The reference's result at an index. -/
theorem result_apply (x0 : (⟨S4x100x81, .f32⟩ : BufTy).Contents (Elt Ideal)) (x1 : (⟨S4x100x256x256, .f32⟩ : BufTy).Contents (Elt Ideal))
    (x2 : (⟨S4x20, .i32⟩ : BufTy).Contents (Elt Ideal)) (x3 : (⟨S4x20x256x256, .f32⟩ : BufTy).Contents (Elt Ideal)) (i : S4x100x20.Idx) :
    val_main_v49 (F := Ideal) x0 x1 x2 x3 i
      = (Ideal.ofBits .f32 0x3F800000#32 * val_main_v3 (F := Ideal) x0 x2 i
          + Ideal.ofBits .f32 0x3F800000#32
            * ((-(∑ l : Fin 65536, Ideal.logistic (val_main_v4 (F := Ideal) x1 (lidx_main_v12 i l)) * val_main_v11 (F := Ideal) x3 (ridx_main_v12 i l)))
                  * Ideal.ofBits .f32 0x37800000#32
               + (-(∑ l : Fin 65536, (Ideal.ofBits .f32 0x3F800000#32 - Ideal.logistic (val_main_v4 (F := Ideal) x1 (lidx_main_v12 i l)))
                      * (Ideal.ofBits .f32 0x3F800000#32 - val_main_v11 (F := Ideal) x3 (ridx_main_v12 i l))))
                  * Ideal.ofBits .f32 0x37800000#32))
        + Ideal.ofBits .f32 0x3F800000#32
          * (Ideal.ofBits .f32 0x3F800000#32
              - Ideal.div (Ideal.ofBits .f32 0x40000000#32
                    * (∑ l : Fin 65536, Ideal.logistic (val_main_v4 (F := Ideal) x1 (lidx_main_v12 i l)) * val_main_v11 (F := Ideal) x3 (ridx_main_v12 i l))
                    + Ideal.ofBits .f32 0x3F800000#32)
                  (((Ideal.ofBits .f32 0x00000000#32 + ∑ l : Fin 65536, Ideal.logistic (val_main_v4 (F := Ideal) x1 (lidx_main_v12 i l)))
                      + (Ideal.ofBits .f32 0x00000000#32 + ∑ l : Fin 65536, val_main_v11 (F := Ideal) x3 (ridx_main_v12 i l)))
                    + Ideal.ofBits .f32 0x3F800000#32)) := by
  simp only [val_main_v49_apply, val_main_v46_apply, val_main_v43_apply, val_main_v42_apply, val_main_cst_11_apply, val_main_v45_apply, val_main_v44_apply, val_main_cst_12_apply, val_main_v24_apply, val_main_v15_apply, val_main_v13_apply, val_main_v12_apply, val_main_v14_apply, val_main_cst_1_apply, val_main_v23_apply, val_main_v21_apply, val_main_v20_apply, val_main_v22_apply, val_main_cst_4_apply, val_main_v48_apply, val_main_v47_apply, val_main_cst_13_apply, val_main_v41_apply, val_main_v40_apply, val_main_cst_10_apply, val_main_v39_apply, val_main_v36_apply, val_main_v27_apply, val_main_v26_apply, val_main_cst_5_apply, val_main_v25_apply, val_main_v35_apply, val_main_cst_8_apply, val_main_v38_apply, val_main_v34_apply, val_main_v32_apply, val_main_v29_apply, val_main_v28_apply, val_main_cst_6_apply, val_main_v33_apply, val_main_v31_apply, val_main_v30_apply, val_main_cst_7_apply, val_main_v37_apply, val_main_cst_9_apply, val_main_v17_apply, val_main_v16_apply, val_main_cst_2_apply, val_main_v19_apply, val_main_v18_apply, val_main_cst_3_apply, sigmoid_apply, rowidx_eq, tgtidx_eq]
  simp only [Ideal.hostDivf_def, Ideal.addf_def, Ideal.subf_def, Ideal.mulf_def, Ideal.hostNegf_def, Ideal.negf_def, Ideal.ofBits_def]

end Cert.ReferenceIdeal.RefValue
end
-- ==== Proof.Bridge.lean ====
/-
  The kernel's result and the reference's are one function of the arguments.

  Both read the same sigmoid p of the reshaped predicted masks and the same reshaped target masks t. The kernel's
  three sums are sums over a batch row's 8 tiles of 8192 positions, the reference's run over all 65536 positions at
  once: the same sums. Every entry of p and of t is a real number when the float inputs are finite (the sigmoid of a
  real is a real), and for real entries the two arrangements of the cost agree; the class cost, which may be
  infinite, is the same extended real on both sides and only ever added.
-/
import proofs.«121014_j8177617731832_1_alg».proof.Proof.KernelValue
import proofs.«121014_j8177617731832_1_alg».proof.Proof.RefValue

set_option maxRecDepth 16384

noncomputable section

open Idealize.ShloMosaic Idealize.ShloMosaic.TcCoe Idealize.SL.Sem
open Idealize.ShloMosaic.Pipeline (Dat)
open Idealize.ShloMosaic.ValueIdx Cert.CostAlgebra Cert.KernelIdeal.Accumulate Cert.KernelIdeal.KernelValue
open Cert.ReferenceIdeal.Read
namespace Cert.Bridge

/-- THE JOIN for sequences known to be real entry by entry. -/
theorem total_eq_of_real (c : EReal) (P T : Fin 65536 → EReal) (hP : ∀ l, ∃ r : ℝ, P l = (r : EReal)) (hT : ∀ l, ∃ r : ℝ, T l = (r : EReal)) :
    ((Ideal.ofBits .f32 0x3F800000#32 * c + Ideal.ofBits .f32 0x00000000#32) + Ideal.ofBits .f32 0x00000000#32)
        + costOf (∑ l, P l) (∑ l, T l) (∑ l, P l * T l)
      = (Ideal.ofBits .f32 0x3F800000#32 * c
          + Ideal.ofBits .f32 0x3F800000#32
            * ((-(∑ l, P l * T l)) * Ideal.ofBits .f32 0x37800000#32
               + (-(∑ l, (Ideal.ofBits .f32 0x3F800000#32 - P l) * (Ideal.ofBits .f32 0x3F800000#32 - T l)))
                  * Ideal.ofBits .f32 0x37800000#32))
        + Ideal.ofBits .f32 0x3F800000#32
          * (Ideal.ofBits .f32 0x3F800000#32
              - Ideal.div (Ideal.ofBits .f32 0x40000000#32 * (∑ l, P l * T l) + Ideal.ofBits .f32 0x3F800000#32)
                  (((Ideal.ofBits .f32 0x00000000#32 + ∑ l, P l) + (Ideal.ofBits .f32 0x00000000#32 + ∑ l, T l))
                    + Ideal.ofBits .f32 0x3F800000#32)) := by
  choose p hp using hP
  choose t ht using hT
  obtain rfl : P = fun l => (p l : EReal) := funext hp
  obtain rfl : T = fun l => (t l : EReal) := funext ht
  exact total_eq c p t

variable (A : Cert.ReferenceIdeal.S4x100x65536.Idx → EReal) (B : Cert.ReferenceIdeal.S4x20x65536.Idx → EReal)

/-- Position k of tile s of row a of batch b, in the reference's index language. -/
theorem pred_pos (b : Fin 4) (a : Fin 100) (q : Fin 20) (s : ℕ) (k : Fin 8192) :
    predIdx b.val s a k = lidx_main_v12 (ix3 b a q) ⟨(8192 * s + k.val) % 65536, Nat.mod_lt _ (by norm_num)⟩ :=
  funext fun ax => Fin.ext (by
    match ax with
    | ⟨0, _⟩ => exact Nat.mod_eq_of_lt b.isLt
    | ⟨1, _⟩ => rfl
    | ⟨2, _⟩ => rfl)

theorem tgt_pos (b : Fin 4) (a : Fin 100) (q : Fin 20) (s : ℕ) (k : Fin 8192) :
    tgtIdx b.val s q k = ridx_main_v12 (ix3 b a q) ⟨(8192 * s + k.val) % 65536, Nat.mod_lt _ (by norm_num)⟩ :=
  funext fun ax => Fin.ext (by
    match ax with
    | ⟨0, _⟩ => exact Nat.mod_eq_of_lt b.isLt
    | ⟨1, _⟩ => rfl
    | ⟨2, _⟩ => rfl)

/-- The eight tiles' row sums of the sigmoid are the row's sum over all positions. -/
theorem row_total (b : Fin 4) (a : Fin 100) (q : Fin 20) :
    ∑ s ∈ Finset.range 8, rowM A b.val s a = ∑ l : Fin 65536, Ideal.logistic (A (lidx_main_v12 (ix3 b a q) l)) :=
  (Finset.sum_congr rfl fun s _ => Finset.sum_congr rfl fun k _ => by rw [pred_pos b a q s k]).trans
    (sum_tiles fun l : Fin 65536 => Ideal.logistic (A (lidx_main_v12 (ix3 b a q) l)))

theorem tgt_total (b : Fin 4) (a : Fin 100) (q : Fin 20) :
    ∑ s ∈ Finset.range 8, tgtM B b.val s q = ∑ l : Fin 65536, B (ridx_main_v12 (ix3 b a q) l) :=
  (Finset.sum_congr rfl fun s _ => Finset.sum_congr rfl fun k _ => by rw [tgt_pos b a q s k]).trans
    (sum_tiles fun l : Fin 65536 => B (ridx_main_v12 (ix3 b a q) l))

theorem dot_total (b : Fin 4) (a : Fin 100) (q : Fin 20) :
    ∑ s ∈ Finset.range 8, dotM A B b.val s a q
      = ∑ l : Fin 65536, Ideal.logistic (A (lidx_main_v12 (ix3 b a q) l)) * B (ridx_main_v12 (ix3 b a q) l) :=
  (Finset.sum_congr rfl fun s _ => Finset.sum_congr rfl fun k _ => by rw [pred_pos b a q s k, tgt_pos b a q s k]).trans
    (sum_tiles fun l : Fin 65536 => Ideal.logistic (A (lidx_main_v12 (ix3 b a q) l)) * B (ridx_main_v12 (ix3 b a q) l))

/-- With every entry of the predicted and the target masks a real number, the kernel's result — the class cost, two
    zeros and the cost array — is the reference's. -/
theorem result_eq_ref (x0 : (⟨Cert.ReferenceIdeal.S4x100x81, .f32⟩ : BufTy).Contents (Elt Ideal))
    (x1 : (⟨Cert.ReferenceIdeal.S4x100x256x256, .f32⟩ : BufTy).Contents (Elt Ideal))
    (x2 : (⟨Cert.ReferenceIdeal.S4x20, .i32⟩ : BufTy).Contents (Elt Ideal))
    (x3 : (⟨Cert.ReferenceIdeal.S4x20x256x256, .f32⟩ : BufTy).Contents (Elt Ideal))
    (h1 : ∀ j, ∃ r : ℝ, x1 j = (r : EReal)) (h3 : ∀ j, ∃ r : ℝ, x3 j = (r : EReal)) :
    resultOf x0 x2 (costArr (val_main_v4 (F := Ideal) x1) (val_main_v11 (F := Ideal) x3)) = val_main_v49 (F := Ideal) x0 x1 x2 x3 := by
  funext i
  obtain ⟨b, a, q, rfl⟩ : ∃ (b : Fin 4) (a : Fin 100) (q : Fin 20), i = ix3 b a q := ⟨i 0, i 1, i 2, eq_ix3 i⟩
  rw [Cert.ReferenceIdeal.RefValue.result_apply]
  show ((Ideal.ofBits .f32 0x3F800000#32 * val_main_v3 (F := Ideal) x0 x2 (ix3 b a q) + Ideal.ofBits .f32 0x00000000#32)
        + Ideal.ofBits .f32 0x00000000#32)
      + costOf (∑ s ∈ Finset.range 8, rowM (val_main_v4 (F := Ideal) x1) b.val s a) (∑ s ∈ Finset.range 8, tgtM (val_main_v11 (F := Ideal) x3) b.val s q)
          (∑ s ∈ Finset.range 8, dotM (val_main_v4 (F := Ideal) x1) (val_main_v11 (F := Ideal) x3) b.val s a q) = _
  rw [row_total _ b a q, tgt_total _ b a q, dot_total _ _ b a q]
  refine total_eq_of_real _ (fun l => Ideal.logistic (val_main_v4 (F := Ideal) x1 (lidx_main_v12 (ix3 b a q) l)))
    (fun l => val_main_v11 (F := Ideal) x3 (ridx_main_v12 (ix3 b a q) l)) (fun l => ?_) (fun l => ?_)
  · obtain ⟨r, hr⟩ := h1 (idx_main_v4 (lidx_main_v12 (ix3 b a q) l))
    refine ⟨(1 + Real.exp (-r))⁻¹, ?_⟩
    show Ideal.logistic (val_main_v4 (F := Ideal) x1 (lidx_main_v12 (ix3 b a q) l)) = _
    rw [val_main_v4_apply, hr]
    exact Ideal.logistic_coe r
  · show ∃ r : ℝ, val_main_v11 (F := Ideal) x3 (ridx_main_v12 (ix3 b a q) l) = (r : EReal)
    rw [val_main_v11_apply]
    exact h3 _

end Cert.Bridge
end
-- ==== Proof.lean ====
/-
  The certificate of the batched matching-cost kernel against its reference, over the extended reals.

  The kernel streams the predicted and the target masks through the region once, eight tiles of 8192 mask positions per
  batch, keeping three running sums — the dot products of the sigmoid rows with the target rows, the row sums of the
  sigmoid, the row sums of the targets — and at a batch's last tile stores (P + T - L - 2 D)/L + 1 - (2 D + 1)/(P + T + 1);
  the host lines after the region add the class cost. The reference computes the mask cost as (-D)/L + (-E)/L with
  E = Σ (1 - p)(1 - t) = L - P - T + D, the same dice cost, and the same class cost. The frames are the generated
  ones (the reference's is its generated run with the result dropped); the idealization rewrote nothing; the values
  agree because the kernel's accumulators are the tile-wise partial sums of the reference's sums (induction on the
  grid point), and the two arrangements of the cost agree on real entries, which the precondition provides.
-/
import proofs.«121014_j8177617731832_1_alg».proof.Defs
import proofs.«121014_j8177617731832_1_alg».proof.Proof.Gen.Kernel
import proofs.«121014_j8177617731832_1_alg».proof.Proof.Gen.Kernel.Skeleton
import proofs.«121014_j8177617731832_1_alg».proof.Proof.Gen.Kernel.Launch
import proofs.«121014_j8177617731832_1_alg».proof.Proof.Gen.Kernel.Points
import proofs.«121014_j8177617731832_1_alg».proof.Proof.Gen.Kernel.Frame
import proofs.«121014_j8177617731832_1_alg».proof.Proof.Gen.KernelIdeal
import proofs.«121014_j8177617731832_1_alg».proof.Proof.Gen.KernelIdeal.Skeleton
import proofs.«121014_j8177617731832_1_alg».proof.Proof.Gen.KernelIdeal.Launch
import proofs.«121014_j8177617731832_1_alg».proof.Proof.Gen.KernelIdeal.Points
import proofs.«121014_j8177617731832_1_alg».proof.Proof.Gen.KernelIdeal.Frame
import proofs.«121014_j8177617731832_1_alg».proof.Proof.Gen.ReferenceIdeal
import proofs.«121014_j8177617731832_1_alg».proof.Proof.Gen.Pre_finite_inputs
import proofs.«121014_j8177617731832_1_alg».proof.Proof.Gen.ReferenceIdeal.Run
import proofs.«121014_j8177617731832_1_alg».proof.Proof.Gen.ReferenceIdeal.Read
import proofs.«121014_j8177617731832_1_alg».proof.Proof.FiniteInputs
import proofs.«121014_j8177617731832_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_kernel : @Cert.frame_Kernel Cert.Kernel.Gen.facts Cert.Pre_finite_inputs.Gen.facts :=
  fun m ρ _ => Cert.Kernel.Gen.frame m ρ

/-- So does the kernel read over the extended reals. -/
theorem frame_kernel_ideal : @Cert.frame_KernelIdeal Cert.KernelIdeal.Gen.facts Cert.Pre_finite_inputs.Gen.facts :=
  fun m ρ _ => Cert.KernelIdeal.Gen.frame m ρ

/-- The reference's run, its result dropped. -/
theorem frame_reference_ideal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments, finite on every float entry, both programs end with the same result:
    the kernel's run leaves the class cost plus the cost array, the reference's run its own composed term, and the
    two are one function of the arguments. -/
theorem algebraic :
    @Cert.algebraic_KernelIdeal_ReferenceIdeal Cert.KernelIdeal.Gen.facts Cert.ReferenceIdeal.Gen.facts Cert.Pre_finite_inputs.Gen.facts := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨f1, f3⟩ := Cert.FiniteInputs.real_entries _ _ _ _ (hpre c)
  rw [Cert.ReferenceIdeal.Read.val_main_v49_eq, (hagree c).1, (hagree c).2.1, (hagree c).2.2.1, (hagree c).2.2.2,
    Cert.KernelIdeal.KernelValue.predArr_eq, Cert.KernelIdeal.KernelValue.tgtArr_eq]
  exact (Cert.Bridge.result_eq_ref _ _ _ _ f1 f3).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
